-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x3072 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S4x2048x3072 : Shape := ⟨3, ![4, 2048, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 24
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S8192x1024, .bf16⟩
  | .hbm, ⟨7, _⟩ => ⟨S1024x3072, .bf16⟩
  | .hbm, ⟨8, _⟩ => ⟨S1x3072, .f32⟩
  | .hbm, ⟨9, _⟩ => ⟨S8192x3072, .bf16⟩
  | .hbm, ⟨10, _⟩ => ⟨S4x2048x3072, .bf16⟩
  | .hbm, ⟨11, _⟩ => ⟨S4x2048x1024, .bf16⟩
  | .hbm, ⟨12, _⟩ => ⟨S4x2048x1024, .bf16⟩
  | .hbm, ⟨13, _⟩ => ⟨S4x2048x1024, .bf16⟩
  | .hbm, ⟨14, _⟩ => ⟨S4x2048x16x64, .bf16⟩
  | .hbm, ⟨15, _⟩ => ⟨S4x16x2048x64, .bf16⟩
  | .hbm, ⟨16, _⟩ => ⟨S4x2048x16x64, .bf16⟩
  | .hbm, ⟨17, _⟩ => ⟨S4x16x2048x64, .bf16⟩
  | .hbm, ⟨18, _⟩ => ⟨S4x2048x16x64, .bf16⟩
  | .hbm, ⟨19, _⟩ => ⟨S4x16x2048x64, .bf16⟩
  | .hbm, ⟨20, _⟩ => ⟨S4x16x2048x64, .f32⟩
  | .hbm, ⟨21, _⟩ => ⟨S4x16x2048x2048, .f32⟩
  | .hbm, ⟨22, _⟩ => ⟨S4x2048x16x64, .f32⟩
  | .hbm, ⟨23, _⟩ => ⟨S4x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x1x512x64, .bf16⟩
  | .local _ .vmem, ⟨7, _⟩ => ⟨S1x1x512x64, .bf16⟩
  | .local _ .vmem, ⟨8, _⟩ => ⟨S1x1x2048x64, .bf16⟩
  | .local _ .vmem, ⟨9, _⟩ => ⟨S1x1x2048x64, .bf16⟩
  | .local _ .vmem, ⟨10, _⟩ => ⟨S1x1x2048x64, .bf16⟩
  | .local _ .vmem, ⟨11, _⟩ => ⟨S1x1x2048x64, .bf16⟩
  | .local _ .vmem, ⟨12, _⟩ => ⟨S1x1x512x64, .f32⟩
  | .local _ .vmem, ⟨13, _⟩ => ⟨S1x1x512x64, .f32⟩
  | .local _ .vmem, ⟨14, _⟩ => ⟨S1x1x512x2048, .f32⟩
  | .local _ .vmem, ⟨15, _⟩ => ⟨S1x1x512x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![64, 4], ![false, false]⟩

def cc1_transform_0 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc1_transform_1 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_2 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_3 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc1_transform_4 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x2048x1024_S8192x1024 : S4x2048x1024.ShapeCasts S8192x1024
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  iota_S512x2048_d0_w32 : S512x2048.Iotas .tc 32 [0]
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S4x16x2048x64.size a
  hwx1_0 : ∀ i : grid1.Coords, EltTy.bits .bf16 = 32 ∨ (Rect.block (s := S4x16x2048x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S4x16x2048x64.size a
  hwx1_1 : ∀ i : grid1.Coords, EltTy.bits .bf16 = 32 ∨ (Rect.block (s := S4x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S4x16x2048x64.size a
  hwx1_2 : ∀ i : grid1.Coords, EltTy.bits .bf16 = 32 ∨ (Rect.block (s := S4x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x64.size a ≤ S4x16x2048x64.size a
  hwx1_3 : ∀ i : grid1.Coords, EltTy.bits .f32 = 32 ∨ (Rect.block (s := S4x16x2048x64) S1x1x512x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x512x2048.size a ≤ S4x16x2048x2048.size a
  hwx1_4 : ∀ i : grid1.Coords, EltTy.bits .f32 = 32 ∨ (Rect.block (s := S4x16x2048x2048) S1x1x512x2048.size (cc1_transform_4 i) (hinb1_4 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15_0) S1x1x512x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15_1) S1x1x512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048x2048 : Shape := ⟨2, ![2048, 2048]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x2048x16x64, .f32⟩
  | .hbm, ⟨15, _⟩ => ⟨S4x16x2048x64, .f32⟩
  | .hbm, ⟨16, _⟩ => ⟨S4x2048x16x64, .f32⟩
  | .hbm, ⟨17, _⟩ => ⟨S4x16x2048x64, .f32⟩
  | .hbm, ⟨18, _⟩ => ⟨S4x16x2048x2048, .f32⟩
  | .hbm, ⟨19, _⟩ => ⟨S_, .f32⟩
  | .hbm, ⟨20, _⟩ => ⟨S_, .f32⟩
  | .hbm, ⟨21, _⟩ => ⟨S4x16x2048x2048, .f32⟩
  | .hbm, ⟨22, _⟩ => ⟨S4x16x2048x2048, .f32⟩
  | .hbm, ⟨23, _⟩ => ⟨S_, .i1⟩
  | .hbm, ⟨24, _⟩ => ⟨S2048x2048, .i1⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .i1⟩
  | .hbm, ⟨32, _⟩ => ⟨S2048x2048, .i1⟩
  | .hbm, ⟨33, _⟩ => ⟨S2048x2048, .i1⟩
  | .hbm, ⟨34, _⟩ => ⟨S1x1x2048x2048, .i1⟩
  | .hbm, ⟨35, _⟩ => ⟨S_, .f32⟩
  | .hbm, ⟨36, _⟩ => ⟨S_, .f32⟩
  | .hbm, ⟨37, _⟩ => ⟨S4x16x2048x2048, .i1⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S_, .f32⟩
  | .hbm, ⟨43, _⟩ => ⟨S4x16x2048, .f32⟩
  | .hbm, ⟨44, _⟩ => ⟨S4x16x2048, .f32⟩
  | .hbm, ⟨45, _⟩ => ⟨S4x16x2048x1, .f32⟩
  | .hbm, ⟨46, _⟩ => ⟨S4x16x2048x2048, .f32⟩
  | .hbm, ⟨47, _⟩ => ⟨S4x16x2048x2048, .f32⟩
  | .hbm, ⟨48, _⟩ => ⟨S4x16x2048x2048, .f32⟩
  | .hbm, ⟨49, _⟩ => ⟨S_, .f32⟩
  | .hbm, ⟨50, _⟩ => ⟨S4x16x2048, .f32⟩
  | .hbm, ⟨51, _⟩ => ⟨S4x16x2048x1, .f32⟩
  | .hbm, ⟨52, _⟩ => ⟨S4x16x2048x2048, .f32⟩
  | .hbm, ⟨53, _⟩ => ⟨S4x16x2048x2048, .f32⟩
  | .hbm, ⟨54, _⟩ => ⟨S4x16x2048x64, .f32⟩
  | .hbm, ⟨55, _⟩ => ⟨S4x2048x16x64, .f32⟩
  | .hbm, ⟨56, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S4x16x2048x2048_0_1_2_3 : S1x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x3072_S4x2048x3072_2_0_01_1_n_n_wf : DotDims.WF S4x2048x1024 S1024x3072 S4x2048x3072 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x3072_S4x2048x3072_2_0_01_1_n_n : DotDims S4x2048x1024 S1024x3072 S4x2048x3072 where
  lhsContracting := [2]
  rhsContracting := [0]
  lhsNonContracting := [0, 1]
  rhsNonContracting := [1]
  lhsBatch := []
  rhsBatch := []
  wf := dot_S4x2048x1024_S1024x3072_S4x2048x3072_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KRun.lean ====
/-
  The idealized kernel program's run with EVERY buffer named: every weakly fair execution of @main terminates, nothing
  faulting, in a memory where each unscoped buffer of each core holds what the fold of @main's segments leaves there
  (`W5`: the host stretches' results and each kernel's arrays as its write-backs leave them).  The frame claim keeps only
  the argument arrays of this; the value claim reads the two results.
-/
import proofs.«158187_j6820408066290_2_alg».proof.Proof.FrameKI

set_option maxRecDepth 16384

noncomputable section

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, every unscoped buffer read at the end: the segments launched as for the frame, the last thread state read
    against the final state buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.GenP

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.Body0.lean ====
/-
  The projection body at an index.  The body holds a block of 512 rows `x0` of the input, the whole weight matrix
  `x1` and the bias as one row `x2`; what it stores at `(p, q)` is row `p` against column `q` plus the bias's entry `q`.
-/
import proofs.«158187_j6820408066290_2_alg».proof.Proof.Gen.KernelIdeal.Skeleton
import proofs.«158187_j6820408066290_2_alg».proof.Proof.LibMatProd
import proofs.«158187_j6820408066290_2_alg».proof.Proof.LibDot2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body0

open Idealize.ShloMosaic Idealize.ShloMosaic.ValueIdx Cert.KernelIdeal Cert.KernelIdeal.Gen

/-- The stored block at `(p, q)`. -/
theorem pay1_apply (x0 : Vec Ideal S512x1024 .bf16) (x1 : Vec Ideal S1024x3072 .bf16) (x2 : Vec Ideal S1x3072 .f32)
    (p : Fin 512) (q : Fin 3072) :
    k0_pay1 (F := Ideal) x0 x1 x2 (ix2 p q) = (∑ l : Fin 1024, x0 (ix2 p l) * x1 (ix2 l q)) + x2 (ix2 0 q) := by
  unfold k0_pay1
  refine (truncf_apply (φ := .f32) (ψ := .bf16) _ bitsLt_bf16_f32 (ix2 p q)).trans ?_
  refine (addf_apply (φ := .f32) _ _ (ix2 p q)).trans ?_
  rw [shapeCast_self, shapeCast_self, shapeCast_self]
  exact congrArg₂ (· + ·)
    (MatProd.matmul_zero_entry (φ₁ := .bf16) (φ₂ := .bf16) dot_S512x1024_S1024x3072_S512x3072_1_0_0_1_n_n none
      (Dot2.rank_contr _ rfl) (Dot2.size_contr _ rfl _)
      (Dot2.lhs0 _ rfl rfl) (Dot2.lhs1 _ rfl _) (Dot2.rhs0 _ rfl _) (Dot2.rhs1 _ rfl rfl rfl rfl) x0 x1 p q)
    (broadcastTo_1b_ab_apply x2 broadcasts_S1x3072_S512x3072 p q)

end Cert.KernelIdeal.Body0

end
-- ==== Proof.Arr0.lean ====
/-
  The projection kernel's result array as ONE function of the three arrays it reads.  The grid has 16 points; point
  `t` reads rows `512 t … 512 t + 511` of the 8192 × 1024 input, the whole weight matrix and the bias row, and writes
  back rows `512 t … 512 t + 511` of the 8192 × 3072 result.  The 16 blocks tile the result, so after the run entry
  `(r, d)` is row `r` of the input against column `d` of the weights, plus the bias's entry `d`.
-/
import proofs.«158187_j6820408066290_2_alg».proof.Proof.FrameKI
import proofs.«158187_j6820408066290_2_alg».proof.Proof.Body0
import Idealize.ShloMosaic.Lib.Pipeline.Value
import Idealize.ShloMosaic.Lib.ValueIdx

set_option maxRecDepth 16384

noncomputable section

open scoped BigOperators

namespace Cert.KernelIdeal.Arr0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

theorem hz2 : (![0, 0] : Fin 2 → Nat) = fun _ => 0 := funext fun a => by fin_cases a <;> rfl

/-- Entry `(r, d)` of the result: row `r` against column `d`, plus the bias. -/
def G0 (a1 : S8192x1024.Idx → EReal) (a2 : S1024x3072.Idx → EReal) (a3 : S1x3072.Idx → EReal) : S8192x3072.Idx → EReal :=
  fun i => (∑ l : Fin 1024, a1 (ix2 ⟨(i 0).val, idx2_lt0 i⟩ l) * a2 (ix2 l ⟨(i 1).val, idx2_lt1 i⟩))
    + a3 (ix2 0 ⟨(i 1).val, idx2_lt1 i⟩)

theorem G0_ix2 (a1 : S8192x1024.Idx → EReal) (a2 : S1024x3072.Idx → EReal) (a3 : S1x3072.Idx → EReal) (r : Fin 8192) (d : Fin 3072) :
    G0 a1 a2 a3 (ix2 r d) = (∑ l : Fin 1024, a1 (ix2 r l) * a2 (ix2 l d)) + a3 (ix2 0 d) := rfl

/-- The printed index maps over the grid: the input and the result move by one block of rows per point, the weights
    and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One block: a body whose three loaded blocks are the rows `512 r0 …` of `A1`, all of `A2` and all of `A3` stores,
    at `y`, the result's entry at row `512 r0 + y 0`, column `y 1`. -/
theorem block_eq (A1 : S8192x1024.Idx → EReal) (A2 : S1024x3072.Idx → EReal) (A3 : S1x3072.Idx → EReal)
    (x0 : Vec Ideal S512x1024 .bf16) (x1 : Vec Ideal S1024x3072 .bf16) (x2 : Vec Ideal S1x3072 .f32)
    (r0 : ℕ) (hr0 : r0 < 16)
    (h0 : ∀ (p : Fin 512) (l : Fin 1024), x0 (ix2 p l) = A1 (ix2 ⟨r0 * 512 + p.val, by omega⟩ l))
    (h1 : ∀ (l : Fin 1024) (q : Fin 3072), x1 (ix2 l q) = A2 (ix2 l q))
    (h2 : ∀ q : Fin 3072, x2 (ix2 0 q) = A3 (ix2 0 q))
    (y : S512x3072.Idx) (i : S8192x3072.Idx) (hi0 : (i 0).val = r0 * 512 + (y 0).val) (hi1 : (i 1).val = (y 1).val) :
    k0_pay1 (F := Ideal) x0 x1 x2 y = G0 A1 A2 A3 i := by
  obtain ⟨p, q, rfl⟩ : ∃ (p : Fin 512) (q : Fin 3072), y = ix2 p q := ⟨y 0, y 1, eq_ix2 y⟩
  have hi : i = ix2 ⟨r0 * 512 + p.val, by omega⟩ q := by
    rw [eq_ix2 i]
    congr 1
    · exact Fin.ext hi0
    · exact Fin.ext hi1
  rw [hi, G0_ix2, Body0.pay1_apply, h2]
  congr 1
  exact Finset.sum_congr rfl fun l _ => by rw [h0, h1]

/-- Point `t`'s block of the input: rows `512 t …` of the array. -/
theorem read_0 (c : Dev nD) (t : Fin cfg0.N) (p : Fin 512) (l : Fin 1024) :
    iblk0 V c 0 t (ix2 p l) = V c main_v1 (ix2 ⟨t.val * 512 + p.val, by have := t.isLt; have hN : cfg0.N = 16 := N_0; omega⟩ l) := by
  show V c main_v1 (((cfg0.win 0).blk t).view.emb (ix2 p l)) = V c main_v1 _
  obtain ⟨e0, e1, -⟩ := idx_facts t
  refine congrArg (V c main_v1) (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * l.val = l.val; omega

/-- Point `t`'s block of the weights: all of them. -/
theorem read_1 (c : Dev nD) (t : Fin cfg0.N) (l : Fin 1024) (q : Fin 3072) :
    iblk0 V c 1 t (ix2 l q) = V c main_v2 (ix2 l q) := by
  show V c main_v2 (((cfg0.win 1).blk t).view.emb (ix2 l q)) = V c main_v2 _
  obtain ⟨-, -, e0, e1, -⟩ := idx_facts t
  refine congrArg (V c main_v2) (funext fun a => Fin.ext ?_)
  match a with
  | ⟨0, _⟩ => show win0_1.index t (0 : Fin 2) * 1024 + 1 * l.val = l.val; omega
  | ⟨1, _⟩ => show win0_1.index t (1 : Fin 2) * 3072 + 1 * q.val = q.val; omega

/-- Point `t`'s block of the bias: the one row. -/
theorem read_2 (c : Dev nD) (t : Fin cfg0.N) (q : Fin 3072) :
    iblk0 V c 2 t (ix2 0 q) = V c main_v3 (ix2 0 q) := by
  show V c main_v3 (((cfg0.win 2).blk t).view.emb (ix2 0 q)) = V c main_v3 _
  obtain ⟨-, -, -, -, e0, e1, -⟩ := idx_facts t
  refine congrArg (V c main_v3) (funext fun a => Fin.ext ?_)
  match a with
  | ⟨0, _⟩ => show win0_2.index t (0 : Fin 2) * 1 + 1 * 0 = 0; omega
  | ⟨1, _⟩ => show win0_2.index t (1 : Fin 2) * 3072 + 1 * q.val = q.val; omega

/-- WHAT POINT `t` WRITES BACK is block `t` of `G0` of the arrays as the region finds them. -/
theorem flushed_eq (c : Dev nD) (t : Fin cfg0.N) :
    (dat0 V c).flushed 3 t = ((cfg0.win 3).blk t).view.read (Elt Ideal) (G0 (V c main_v1) (V c main_v2) (V c main_v3)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S1024x3072) hz2, View.ld_unit_zero (S := S1x3072) hz2]
  funext y
  obtain ⟨-, -, -, -, -, -, e0, e1⟩ := idx_facts t
  have ht : t.val < 16 := by have := t.isLt; have hN : cfg0.N = 16 := N_0; omega
  refine block_eq (V c main_v1) (V c main_v2) (V c main_v3) (iblk0 V c 0 t) (iblk0 V c 1 t) (iblk0 V c 2 t) t.val ht
    (read_0 V c t) (read_1 V c t) (read_2 V c t) y (((cfg0.win 3).blk t).view.emb y) ?_ ?_
  · show win0_3.index t (0 : Fin 2) * 512 + 1 * (y 0).val = t.val * 512 + (y 0).val; omega
  · show win0_3.index t (1 : Fin 2) * 3072 + 1 * (y 1).val = (y 1).val; omega

/-- An index of the array is in point `t`'s block iff each coordinate is in the block's range on its axis. -/
theorem mem_blk (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v4).slice (win0_3.rect t)).set ↔ _
  rw [View.set_slice_whole, Rect.mem_set_unit]
  exact Iff.rfl

/-- Every entry of the result is in some point's block: row `r` is in block `r / 512`. -/
theorem cover (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  have hN : cfg0.N = 16 := N_0
  let t : Fin cfg0.N := ⟨(i 0).val / 512, by rw [hN]; omega⟩
  refine ⟨t, flush0_3 t, ?_⟩
  obtain ⟨-, -, -, -, -, -, e0, e1⟩ := idx_facts t
  have ht : t.val = (i 0).val / 512 := rfl
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- THE ARRAY after the run of the region. -/
theorem final (c : Dev nD) : (dat0 V c).arrAt 3 cfg0.N = G0 (V c main_v1) (V c main_v2) (V c main_v3) :=
  (dat0 V c).arrAt_eq_of_cover 3 (G0 (V c main_v1) (V c main_v2) (V c main_v3)) (fun t _ => flushed_eq V c t) cover

end Cert.KernelIdeal.Arr0

end
-- ==== Proof.LibAttnRow.lean ====
/-
  One row of masked, scaled dot-product attention on the extended reals.

  For a query row `q` (d entries), keys `K` (s rows of d entries), a one-bit mask row `mk` and values `V`:
  the logit of key `k` is the scaled score `(∑ d, q d * K k d) * c`, replaced by the fill value `neg` where the mask
  bit is set; the row's weights are its softmax taken stably, `exp (z k - M) / ∑ k', exp (z k' - M)` with `M` the row's
  maximum folded from `b`; the context entry `j` is `∑ k, w k * V k j`.

  Two spellings of the same row meet here.  One scales the query before the product, `∑ d, (q d * c) * K k d`: for a
  scale `c` that is non-negative and not +∞, multiplication by `c` distributes over every sum of extended reals, so
  the two scores agree with no finiteness asked of `q` or `K` (`score_pre`).  The other takes one more maximum of the
  row's maximum with the fold's own starting value, which changes nothing since a fold of `max` is never below the
  value it starts from (`max_init_fold`).
-/
import Idealize.ShloMosaic.PureOps.Ideal
import Idealize.ShloMosaic.PureOps.Ideal.Laws

noncomputable section

open scoped BigOperators

namespace Attn

open Idealize.ShloMosaic

/-- The scaled score of a query row against one key row. -/
def score {D : ℕ} (c : EReal) (q kr : Fin D → EReal) : EReal := (∑ d, q d * kr d) * c

/-- The same with the scale folded into the query first. -/
def scorePre {D : ℕ} (c : EReal) (q kr : Fin D → EReal) : EReal := ∑ d, (q d * c) * kr d

/-- A factor that is non-negative and not +∞ moves out of a finite sum of extended reals. -/
theorem sum_mul_const {ι : Type*} (s : Finset ι) (f : ι → EReal) {c : EReal} (h0 : 0 ≤ c) (ht : c ≠ ⊤) :
    ∑ i ∈ s, f i * c = (∑ i ∈ s, f i) * c := by
  classical
  refine Finset.induction_on s (by simp) ?_
  intro a t ha ih
  rw [Finset.sum_insert ha, Finset.sum_insert ha, ih, EReal.right_distrib_of_nonneg_of_ne_top h0 ht]

/-- Scaling the query first gives the scaled score. -/
theorem score_pre {D : ℕ} {c : EReal} (h0 : 0 ≤ c) (ht : c ≠ ⊤) (q kr : Fin D → EReal) :
    scorePre c q kr = score c q kr := by
  unfold scorePre score
  rw [← sum_mul_const _ _ h0 ht]
  exact Finset.sum_congr rfl fun d _ => by rw [mul_assoc, mul_comm c, ← mul_assoc]

/-- The logits of a row: the fill value where the mask bit is set, the score elsewhere. -/
def logit {S D : ℕ} (c neg : EReal) (q : Fin D → EReal) (K : Fin S → Fin D → EReal) (mk : Fin S → BitVec 1) (k : Fin S) : EReal :=
  Scalar.select (mk k) neg (score c q (K k))

/-- The row's maximum, folded from `b`. -/
def rowMax {S : ℕ} (b : EReal) (z : Fin S → EReal) : EReal := (Finset.univ : Finset (Fin S)).fold max b z

/-- A fold of `max` is at least the value it starts from. -/
theorem max_init_fold {S : ℕ} (b : EReal) (z : Fin S → EReal) : max b (rowMax b z) = rowMax b z :=
  max_eq_right (Finset.le_fold_max b |>.mpr (Or.inl le_rfl))

/-- The stable softmax of a row of logits. -/
def softmax {S : ℕ} (b : EReal) (z : Fin S → EReal) (k : Fin S) : EReal :=
  Ideal.div (Ideal.exp (z k - rowMax b z)) (∑ k', Ideal.exp (z k' - rowMax b z))

/-- The attention weights of one query row. -/
def weights {S D : ℕ} (c neg b : EReal) (q : Fin D → EReal) (K : Fin S → Fin D → EReal) (mk : Fin S → BitVec 1) : Fin S → EReal :=
  softmax b (logit c neg q K mk)

/-- The context row: the weights against the values. -/
def context {S D E : ℕ} (c neg b : EReal) (q : Fin D → EReal) (K : Fin S → Fin D → EReal) (mk : Fin S → BitVec 1)
    (V : Fin S → Fin E → EReal) (j : Fin E) : EReal :=
  ∑ k, weights c neg b q K mk k * V k j

/-- The three single-precision words a program prints for the scale 1/8, the fill value −10⁹ and −∞. -/
abbrev c8 : EReal := Ideal.ofBits .f32 0x3E000000#32
abbrev fill : EReal := Ideal.ofBits .f32 0xCE6E6B28#32
abbrev ninf : EReal := Ideal.ofBits .f32 0xFF800000#32

/-- The scale's word denotes the real 1/8. -/
theorem c8_eq : c8 = ((1 / 8 : ℝ) : EReal) := by
  simp [c8, Ideal.ofBits, Ideal.ieee]
  norm_cast
  norm_num

theorem c8_nonneg : 0 ≤ c8 := by rw [c8_eq]; exact_mod_cast (by norm_num : (0 : ℝ) ≤ 1 / 8)
theorem c8_ne_top : c8 ≠ ⊤ := by rw [c8_eq]; exact EReal.coe_ne_top _

end Attn

end
-- ==== Proof.Spec.lean ====
/-
  Causal multi-head attention over the extended reals, as the two programs of this certificate both compute it.

  The input `x` (4 batches of 2048 positions of 1024 features) is projected by `w` (1024 × 3072) and shifted by the
  bias `b`: `proj x w b n t d = (∑ c, x (n, t, c) * w (c, d)) + b d`.  The 3072 projected features are three thirds
  (queries, keys, values) of 16 heads of 64 lanes each: head `h`, lane `e` of third `s` is feature
  `s * 1024 + h * 64 + e` (`col`).  For one batch and one head, with `Q`, `K`, `Vv` the 2048 × 64 arrays of
  queries, keys and values: the logit of position `i` against position `j` (`rowLogit`, for a row at position `r`) is `(∑ e, Q i e * K j e) * (1/8)` when
  `j ≤ i` and −∞ otherwise; the weights of row `i` are the stable softmax of its logits (the row's maximum folded
  from −∞); the context is `∑ j, weight i j * Vv j e`.

  Two facts about single-precision words: the word 0xFF800000 denotes −∞, and the quotient by the square root of the
  word of 64 is the product with the word of 1/8, on every extended real.
-/
import Idealize.ShloMosaic.Lib.ValueIdx
import Idealize.ShloMosaic.PureOps.Ideal
import Idealize.ShloMosaic.PureOps.Ideal.Laws
import proofs.«158187_j6820408066290_2_alg».proof.Proof.LibAttnRow

noncomputable section

open scoped BigOperators

namespace Heads

open Idealize.ShloMosaic Idealize.ShloMosaic.ValueIdx

/-- The projection: position `t` of batch `n` against column `d`, plus the bias. -/
def proj (x : (⟨3, ![4, 2048, 1024]⟩ : Shape).Idx → EReal) (w : (⟨2, ![1024, 3072]⟩ : Shape).Idx → EReal)
    (b : (⟨1, ![3072]⟩ : Shape).Idx → EReal) (n : Fin 4) (t : Fin 2048) (d : Fin 3072) : EReal :=
  (∑ c : Fin 1024, x (ix3 n t c) * w (ix2 c d)) + b (ix1 d)

/-- The projected feature that is lane `e` of head `h` in third `s` (0 queries, 1 keys, 2 values). -/
def col (s : Fin 3) (h : Fin 16) (e : Fin 64) : Fin 3072 := ⟨s.val * 1024 + h.val * 64 + e.val, by omega⟩

/-- Third `s` of the projection, for batch `n` and head `h`: a 2048 × 64 array. -/
def third (x : (⟨3, ![4, 2048, 1024]⟩ : Shape).Idx → EReal) (w : (⟨2, ![1024, 3072]⟩ : Shape).Idx → EReal)
    (b : (⟨1, ![3072]⟩ : Shape).Idx → EReal) (s : Fin 3) (n : Fin 4) (h : Fin 16) : Fin 2048 → Fin 64 → EReal :=
  fun t e => proj x w b n t (col s h e)

/-- The logits of one query row `q` whose position is `r`: against key position `j` the scaled score when `j ≤ r`,
    −∞ above the diagonal. -/
def rowLogit (q : Fin 64 → EReal) (K : Fin 2048 → Fin 64 → EReal) (r : ℕ) (j : Fin 2048) : EReal :=
  if j.val ≤ r then (∑ e : Fin 64, q e * K j e) * Attn.c8 else ⊥

/-- The attention weights of that row: the stable softmax of its logits, the maximum folded from −∞. -/
def rowProb (q : Fin 64 → EReal) (K : Fin 2048 → Fin 64 → EReal) (r : ℕ) (j : Fin 2048) : EReal :=
  Attn.softmax ⊥ (rowLogit q K r) j

/-- The context of that row, lane `e`. -/
def rowCtx (q : Fin 64 → EReal) (K Vv : Fin 2048 → Fin 64 → EReal) (r : ℕ) (e : Fin 64) : EReal :=
  ∑ j : Fin 2048, rowProb q K r j * Vv j e

/-- The attention weights of position `i` against position `j`. -/
def prob (Q K : Fin 2048 → Fin 64 → EReal) (i j : Fin 2048) : EReal := rowProb (Q i) K i.val j

/-- The context of position `i`, lane `e`. -/
def ctx (Q K Vv : Fin 2048 → Fin 64 → EReal) (i : Fin 2048) (e : Fin 64) : EReal := rowCtx (Q i) K Vv i.val e

/-- The word 0xFF800000 denotes −∞. -/
theorem ninf_eq : Ideal.ofBits .f32 0xFF800000#32 = (⊥ : EReal) := by
  simp [Ideal.ofBits, Ideal.ieee]

/-- The word 0x42800000 denotes 64. -/
theorem w64_eq : Ideal.ofBits .f32 0x42800000#32 = ((64 : ℝ) : EReal) := by
  simp [Ideal.ofBits, Ideal.ieee]
  norm_cast
  norm_num

/-- The square root of 64 is 8. -/
theorem sqrt64 : Ideal.sqrt (Ideal.ofBits .f32 0x42800000#32) = ((8 : ℝ) : EReal) := by
  rw [w64_eq, Ideal.sqrt_coe, if_neg (by norm_num)]
  congr 1
  rw [show (64 : ℝ) = 8 ^ 2 by norm_num]
  exact Real.sqrt_sq (by norm_num)

/-- Dividing by the square root of 64 is multiplying by 1/8, on every extended real. -/
theorem div_sqrt64 (a : EReal) : Ideal.div a (Ideal.sqrt (Ideal.ofBits .f32 0x42800000#32)) = a * Attn.c8 := by
  rw [sqrt64, Ideal.div_coe (by norm_num : (8 : ℝ) ≠ 0), Attn.c8_eq]

end Heads

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibMatProdT.lean ====
/-
  A matrix unit's product whose right operand is stored with the contracted axis LAST: for an `n × k` array `A` and an
  `m × k` array `B`, contracting the second axis of both onto the zero accumulator gives, at `(p, q)`, the sum over `l` of
  `A (p, l) * B (q, l)` — the entries of `A · Bᵀ` without the transpose ever being formed.  Also a row maximum: a
  `maximumf` reduction of a rank-2 array along its last axis reads, at row `p`, the fold of `max` from the accumulator's
  value over that row.  Generic extents; indices are built from coordinates.
-/
import Idealize.ShloMosaic.Lib.ValueIdx
import Idealize.ShloMosaic.PureOps.Ideal.Laws

noncomputable section

open scoped BigOperators

namespace MatProdT

open Idealize.ShloMosaic Idealize.ShloMosaic.ValueIdx

/-- The product onto the zero accumulator with both operands contracted along their second axis. -/
theorem matmul_zero_entry_T {n k m : ℕ} {φ₁ φ₂ : FTy}
    (d : DotDims (⟨2, ![n, k]⟩ : Shape) (⟨2, ![m, k]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (j 1).val)
    (hr1 : ∀ (j : (⟨2, ![n, m]⟩ : Shape).Idx) (c : d.contr.Idx), (d.rhsIdx j c 1).val = (c ⟨0, by omega⟩).val)
    (lhs : FVec Ideal (⟨2, ![n, k]⟩ : Shape) φ₁) (rhs : FVec Ideal (⟨2, ![m, k]⟩ : Shape) φ₂) (p : Fin n) (q : Fin m) :
    FloatOps.matmul d prec lhs rhs (constant (F := Ideal) (⟨2, ![n, m]⟩ : Shape) .f32 0x00000000#32) (ix2 p q)
      = ∑ l : Fin k, lhs (ix2 p l) * rhs (ix2 q l) := by
  rw [Ideal.matmul_constant_zero_apply, ← Equiv.sum_comp (contrEquiv1 d k hr hs).symm]
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 q l := funext fun a => Fin.ext (by
    match a with
    | ⟨0, _⟩ => exact hr0 _ _
    | ⟨1, _⟩ => exact (hr1 _ _).trans hk)
  rw [el, er]

/-- A row maximum: the fold of `max` from the accumulator's value over the row's entries. -/
theorem max_ab_1 {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have e : (src ∘ h.lift (ix1 i)) = fun k : Fin b => src (ix2 i k) := funext fun k => congrArg src (funext fun ax => Fin.ext (by
    match ax with | ⟨0, _⟩ => rfl | ⟨1, _⟩ => rfl))
  exact congrArg (fun f => Finset.fold max (Ideal.ofBits φ acc) f (Finset.univ : Finset (Fin b))) e

end MatProdT

end
-- ==== Proof.LibRowStat.lean ====
/-
  A row statistic of a rank-2 array kept as a column and stretched back over the row: the `keepdims` maximum and the
  `keepdims` sum along the last axis, each reshaped `[a] → [a, 1]` and broadcast `[a, 1] → [a, b]`, read at `(p, r)`:
  the fold of `max` from −∞, or the sum, over row `p` — the same at every `r`.  Also the column `[a, 1]` itself read at
  `(p, 0)`.  The arrays are single-precision; the reductions start from the words a program prints for them, the zero
  word for a sum and the word of −∞ for a maximum, and the side conditions are typed as a printed program proves them.
  The exponential and the reciprocal square root of an array of extended reals are taken entry by entry.  Generic
  extents; indices are built from coordinates.
-/
import Idealize.ShloMosaic.Lib.Pipeline.Value
import Idealize.ShloMosaic.Lib.ValueIdx
import Idealize.ShloMosaic.PureOps.Ideal.Laws
import proofs.«158187_j6820408066290_2_alg».proof.Proof.LibLayout
import proofs.«158187_j6820408066290_2_alg».proof.Proof.LibRowCol
import proofs.«158187_j6820408066290_2_alg».proof.Proof.LibMatProdT

noncomputable section

open scoped BigOperators

namespace RowStat

open Idealize.ShloMosaic Idealize.ShloMosaic.ValueIdx

theorem exp_apply {s : Shape} {φ : FTy} (x : FVec Ideal s φ) (i : s.Idx) : exp x i = Ideal.exp (x i) := rfl
theorem rsqrt_apply {s : Shape} {φ : FTy} (x : FVec Ideal s φ) (i : s.Idx) : rsqrt x i = Ideal.rsqrt (x i) := rfl

/-- The row maximum as a column, at `(p, u)`. -/
theorem max_col {a b : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (p : Fin a) (u : Fin 1) :
    shapeCast ⟨2, ![a, 1]⟩ (multiReduction .maximumf [1] ⟨1, ![a]⟩ z 0xFF800000#32 hred hφ hacc) hc (ix2 p u)
      = (Finset.univ : Finset (Fin b)).fold max (Ideal.ofBits .f32 0xFF800000#32) (fun k => z (ix2 p k)) :=
  (PushPull.Layout.cast_a_a1 _ hc p u).trans (MatProdT.max_ab_1 z 0xFF800000#32 hred hφ hacc p)

/-- The row sum as a column, at `(p, u)`. -/
theorem sum_col {a b : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction .add [1] ⟨1, ![a]⟩ z 0x00000000#32 hred hφ hacc) hc (ix2 p u)
      = ∑ k : Fin b, z (ix2 p k) :=
  (PushPull.Layout.cast_a_a1 _ hc p u).trans (PushPull.Layout.sum_ab_1 z 0x00000000#32 hred hφ hacc p)

/-- The row maximum stretched back over the row, at `(p, r)`. -/
theorem max_back {a b c : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .maximumf [1] ⟨1, ![a]⟩ z 0xFF800000#32 hred hφ hacc) hc) hb (ix2 p r)
      = (Finset.univ : Finset (Fin b)).fold max (Ideal.ofBits .f32 0xFF800000#32) (fun k => z (ix2 p k)) :=
  (RowCol.broadcastTo_a1_ab_apply _ hb p r).trans (max_col z hred hφ hacc hc p 0)

/-- The row sum stretched back over the row, at `(p, r)`. -/
theorem sum_back {a b c : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .add [1] ⟨1, ![a]⟩ z 0x00000000#32 hred hφ hacc) hc) hb (ix2 p r)
      = ∑ k : Fin b, z (ix2 p k) :=
  (RowCol.broadcastTo_a1_ab_apply _ hb p r).trans (sum_col z hred hφ hacc hc p 0)

end RowStat

end
-- ==== Proof.Body1.lean ====
/-
  The attention body at an index.  At grid point `(g, qt)` the body holds one block of 512 query rows `x0`, and the
  2048 key rows `x1` and value rows `x2` of the same batch and head.  Row `p` of the block is position
  `qt * 512 + p`; what the body stores for it is that row's attention weights (`Heads.rowProb`) and its context
  (`Heads.rowCtx`).
-/
import proofs.«158187_j6820408066290_2_alg».proof.Proof.Gen.KernelIdeal.Skeleton
import proofs.«158187_j6820408066290_2_alg».proof.Proof.Spec
import proofs.«158187_j6820408066290_2_alg».proof.Proof.LibRowStat
import proofs.«158187_j6820408066290_2_alg».proof.Proof.LibMatProd
import proofs.«158187_j6820408066290_2_alg».proof.Proof.LibDot2
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators

namespace Cert.KernelIdeal.Body1

open Idealize.ShloMosaic Idealize.ShloMosaic.ValueIdx Cert.KernelIdeal Cert.KernelIdeal.Gen

/-- Row `p` of a block of query rows. -/
def qrow (x0 : Vec Ideal S1x1x512x64 .bf16) (p : Fin 512) : Fin 64 → EReal := fun e => x0 (ix4 0 0 p e)

/-- A block of 2048 key or value rows as a 2048 × 64 array. -/
def rows (x : Vec Ideal S1x1x2048x64 .bf16) : Fin 2048 → Fin 64 → EReal := fun j e => x (ix4 0 0 j e)

section Casts
variable {α : Type}

/-- `[1, 1, a, b] → [a, b]`: the entry `(i, j)` is the entry `(0, 0, i, j)`. -/
private theorem cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- `[a, b] → [1, 1, a, b]`: the entry `(u, v, i, j)` is the entry `(i, j)`. -/
private theorem cast_ab_11ab {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

end Casts

/-- The fill value of the mask is −∞. -/
private theorem neg_big_eq : Named.named (F := Ideal) κ "neg_big" (φ := .f32) 0xFF333332#32 = (⊥ : EReal) :=
  IdealRules.named_const.ideal_named_scalar _ _ _ _ rfl

/-- The word of row `q * 512 + p`. -/
private theorem row_word (q p : ℕ) (hq : q < 4) (hp : p < 512) :
    IntOp.addi (Scalar.muli (BitVec.ofNat 32 q) 512#32) (BitVec.ofNat 32 p) = BitVec.ofNat 32 (q * 512 + p) := by
  apply BitVec.eq_of_toNat_eq
  simp only [IntOp.addi, Scalar.muli, IntOp.muli, BitVec.toNat_add, BitVec.toNat_mul, BitVec.toNat_ofNat]
  omega

/-- Two numbers below 2³¹ compare as 32-bit signed words the way they compare as numbers. -/
private theorem sle_word (a b : ℕ) (ha : a < 2 ^ 31) (hb : b < 2 ^ 31) :
    IntOp.cmpi .sle (BitVec.ofNat 32 a) (BitVec.ofNat 32 b) = if a ≤ b then 1#1 else 0#1 := by
  have e : (BitVec.ofNat 32 a).sle (BitVec.ofNat 32 b) = decide (a ≤ b) := by
    rw [BitVec.sle_eq_decide]
    congr 1
    rw [BitVec.toInt_eq_toNat_cond, BitVec.toInt_eq_toNat_cond, BitVec.toNat_ofNat, BitVec.toNat_ofNat]
    apply propext
    omega
  unfold IntOp.cmpi
  simp only [e]
  by_cases h : a ≤ b <;> simp [h]

/-- The stable softmax of each row of an array of logits, as a program spells it: the row maximum folded from the
    word of −∞ and the row sum, each kept as a column and stretched back over the row. -/
private theorem softmax_rows {a b : ℕ} (z : FVec Ideal ⟨2, ![a, b]⟩ .f32)
    (hred : (⟨2, ![a, b]⟩ : Shape).Reduces [1] ⟨1, ![a]⟩) (hφ : FKind.Formats .f32)
    (haccm : (0xFF800000#32 : BitVec 32) = 0xFF800000#32) (hacc0 : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (p : Fin a) (j : Fin b) :
    divf (exp (subf z (broadcastTo ⟨2, ![a, b]⟩ (shapeCast ⟨2, ![a, 1]⟩
          (multiReduction .maximumf [1] ⟨1, ![a]⟩ z 0xFF800000#32 hred hφ haccm) hc) hb)))
        (broadcastTo ⟨2, ![a, b]⟩ (shapeCast ⟨2, ![a, 1]⟩
          (multiReduction .add [1] ⟨1, ![a]⟩
            (exp (subf z (broadcastTo ⟨2, ![a, b]⟩ (shapeCast ⟨2, ![a, 1]⟩
              (multiReduction .maximumf [1] ⟨1, ![a]⟩ z 0xFF800000#32 hred hφ haccm) hc) hb)))
            0x00000000#32 hred hφ hacc0) hc) hb) (ix2 p j)
      = Attn.softmax ⊥ (fun k => z (ix2 p k)) j := by
  rw [divf_apply, RowStat.exp_apply, subf_apply, RowStat.max_back z hred hφ haccm hc hb p j,
    RowStat.sum_back _ hred hφ hacc0 hc hb p j]
  unfold Attn.softmax Attn.rowMax
  rw [Heads.ninf_eq]
  congr 1
  refine Finset.sum_congr rfl fun k _ => ?_
  rw [RowStat.exp_apply, subf_apply, RowStat.max_back z hred hφ haccm hc hb p k, Heads.ninf_eq]

section Scores

local notation "dQK" => dot_S512x64_S2048x64_S512x2048_1_1_0_0_n_n

/-- The left operand's row is the result's row. -/
private theorem dQK_lhs0 (j : S512x2048.Idx) (c : (dQK).contr.Idx) : ((dQK).lhsIdx j c 0).val = (j 0).val := by
  unfold DotDims.lhsIdx
  rw [dif_neg (show ¬(0 : Fin S512x64.rank) ∈ (dQK).lhsBatch by decide),
    dif_pos (show (0 : Fin S512x64.rank) ∈ (dQK).lhsNonContracting by decide)]
  rfl

/-- The right operand's row is the result's column: both operands are contracted along their last axis. -/
private theorem dQK_rhs0 (j : S512x2048.Idx) (c : (dQK).contr.Idx) : ((dQK).rhsIdx j c 0).val = (j 1).val := by
  unfold DotDims.rhsIdx
  rw [dif_neg (show ¬(0 : Fin S2048x64.rank) ∈ (dQK).rhsBatch by decide),
    dif_pos (show (0 : Fin S2048x64.rank) ∈ (dQK).rhsNonContracting by decide)]
  rfl

/-- The scores of the block: query row `p` against key row `k`. -/
private theorem scores_apply (x0 : Vec Ideal S1x1x512x64 .bf16) (x1 : Vec Ideal S1x1x2048x64 .bf16) (p : Fin 512) (k : Fin 2048) :
    matmul dQK none
        (shapeCast S512x64 x0 shapeCasts_S1x1x512x64_S512x64 : FVec Ideal S512x64 .bf16)
        (shapeCast S2048x64 x1 shapeCasts_S1x1x2048x64_S2048x64 : FVec Ideal S2048x64 .bf16)
        (constant (F := Ideal) S512x2048 .f32 0x00000000#32) (ix2 p k)
      = ∑ e : Fin 64, qrow x0 p e * rows x1 k e := by
  refine (MatProdT.matmul_zero_entry_T dQK none rfl rfl dQK_lhs0
    (fun j c => (dQK).lhsIdx_val_of_single rfl j c) dQK_rhs0
    (fun j c => (dQK).rhsIdx_val_of_single rfl j c) _ _ p k).trans ?_
  refine Finset.sum_congr rfl fun e _ => ?_
  rw [cast_11ab_ab, cast_11ab_ab]
  rfl

/-- The mask of the block: at row `p` and key position `k` the bit is set exactly when `k` is not after the row's
    position `q * 512 + p`. -/
private theorem mask_apply (q : ℕ) (hq : q < 4) (p : Fin 512) (k : Fin 2048) :
    cmpi .sle (iota .tc S512x2048 32 [1] iota_S512x2048_d1_w32)
        (addi (broadcast S512x2048 (Scalar.muli (BitVec.ofNat 32 q) 512#32))
          (iota .tc S512x2048 32 [0] iota_S512x2048_d0_w32)) (ix2 p k)
      = if k.val ≤ q * 512 + p.val then 1#1 else 0#1 := by
  show IntOp.cmpi .sle (iota .tc S512x2048 32 [1] iota_S512x2048_d1_w32 (ix2 p k))
    (IntOp.addi (Scalar.muli (BitVec.ofNat 32 q) 512#32) (iota .tc S512x2048 32 [0] iota_S512x2048_d0_w32 (ix2 p k))) = _
  rw [iota_single_apply, iota_single_apply]
  show IntOp.cmpi .sle (BitVec.ofNat 32 k.val) (IntOp.addi (Scalar.muli (BitVec.ofNat 32 q) 512#32) (BitVec.ofNat 32 p.val)) = _
  have hp := p.isLt
  have hk := k.isLt
  rw [row_word q p.val hq hp, sle_word _ _ (by omega) (by omega)]

/-- The body's masked, scaled scores at row `p`, key position `k`. -/
private theorem logits_apply (i : grid1.Coords) (x0 : Vec Ideal S1x1x512x64 .bf16) (x1 : Vec Ideal S1x1x2048x64 .bf16)
    (p : Fin 512) (k : Fin 2048) :
    select (cmpi .sle (iota .tc S512x2048 32 [1] iota_S512x2048_d1_w32)
        (addi (broadcast S512x2048 (Scalar.muli (BitVec.ofNat 32 (i 1).val) 512#32))
          (iota .tc S512x2048 32 [0] iota_S512x2048_d0_w32)))
      (mulf (matmul dQK none
          (shapeCast S512x64 x0 shapeCasts_S1x1x512x64_S512x64 : FVec Ideal S512x64 .bf16)
          (shapeCast S2048x64 x1 shapeCasts_S1x1x2048x64_S2048x64 : FVec Ideal S2048x64 .bf16)
          (constant (F := Ideal) S512x2048 .f32 0x00000000#32))
        (broadcast S512x2048 (Scalar.ofBits (F := Ideal) .f32 0x3E000000#32)))
      (broadcast S512x2048 (Named.named (F := Ideal) κ "neg_big" (φ := .f32) 0xFF333332#32)) (ix2 p k)
      = Heads.rowLogit (qrow x0 p) (rows x1) ((i 1).val * 512 + p.val) k := by
  have hq : (i 1).val < 4 := (i 1).isLt
  rw [select_apply, mask_apply _ hq, mulf_apply, broadcast_apply, broadcast_apply, scores_apply, neg_big_eq]
  unfold Heads.rowLogit Scalar.select
  by_cases h : k.val ≤ (i 1).val * 512 + p.val
  · rw [if_pos h, if_pos h, if_pos (by decide)]; rfl
  · rw [if_neg h, if_neg h, if_neg (by decide)]

end Scores

/-- The weights the body computes, at row `p` and key position `j`. -/
theorem pay2_apply (i : grid1.Coords) (x0 : Vec Ideal S1x1x512x64 .bf16) (x1 : Vec Ideal S1x1x2048x64 .bf16)
    (p : Fin 512) (j : Fin 2048) :
    k1_pay2 (F := Ideal) i x0 x1 (ix2 p j) = Heads.rowProb (qrow x0 p) (rows x1) ((i 1).val * 512 + p.val) j := by
  unfold k1_pay2
  refine (softmax_rows _ reduces_S512x2048_S512 (.inl rfl) rfl rfl shapeCasts_S512_S512x1 broadcasts_S512x1_S512x2048 p j).trans ?_
  unfold Heads.rowProb
  exact congrArg (fun z => Attn.softmax ⊥ z j) (funext fun k => logits_apply i x0 x1 p k)

/-- The stored block of weights, at `(0, 0, p, j)`. -/
theorem pay3_apply (i : grid1.Coords) (x0 : Vec Ideal S1x1x512x64 .bf16) (x1 : Vec Ideal S1x1x2048x64 .bf16)
    (p : Fin 512) (j : Fin 2048) :
    k1_pay3 (F := Ideal) i x0 x1 (ix4 0 0 p j) = Heads.rowProb (qrow x0 p) (rows x1) ((i 1).val * 512 + p.val) j := by
  unfold k1_pay3
  exact (cast_ab_11ab _ shapeCasts_S512x2048_S1x1x512x2048 0 0 p j).trans (pay2_apply i x0 x1 p j)

section Context

local notation "dPV" => dot_S512x2048_S2048x64_S512x64_1_0_0_1_n_n

/-- The weights times the values, at row `p` and lane `e`. -/
private theorem pay4_apply (i : grid1.Coords) (x0 : Vec Ideal S1x1x512x64 .bf16) (x1 x2 : Vec Ideal S1x1x2048x64 .bf16)
    (p : Fin 512) (e : Fin 64) :
    k1_pay4 (F := Ideal) i x0 x1 x2 (ix2 p e)
      = Heads.rowCtx (qrow x0 p) (rows x1) (rows x2) ((i 1).val * 512 + p.val) e := by
  unfold k1_pay4
  refine (MatProd.matmul_zero_entry dPV none rfl rfl (Dot2.lhs0 dPV rfl rfl)
    (fun j c => (dPV).lhsIdx_val_of_single rfl j c) (fun j c => (dPV).rhsIdx_val_of_single rfl j c)
    (Dot2.rhs1 dPV rfl rfl rfl rfl) _ _ p e).trans ?_
  unfold MatProd.entry Heads.rowCtx
  refine Finset.sum_congr rfl fun l _ => ?_
  rw [truncf_apply, pay2_apply, cast_11ab_ab]
  rfl

end Context

/-- The stored block of contexts, at `(0, 0, p, e)`. -/
theorem pay14_apply (i : grid1.Coords) (x0 : Vec Ideal S1x1x512x64 .bf16) (x1 x2 : Vec Ideal S1x1x2048x64 .bf16)
    (p : Fin 512) (e : Fin 64) :
    k1_pay1 (F := Ideal) (k1_pay4 i x0 x1 x2) (ix4 0 0 p e)
      = Heads.rowCtx (qrow x0 p) (rows x1) (rows x2) ((i 1).val * 512 + p.val) e := by
  unfold k1_pay1
  exact (cast_ab_11ab _ shapeCasts_S512x64_S1x1x512x64 0 0 p e).trans (pay4_apply i x0 x1 x2 p e)

end Cert.KernelIdeal.Body1

end
-- ==== Proof.Arr1.lean ====
/-
  The attention kernel's two result arrays, each as ONE function of the three arrays it reads.  The grid has 256
  points; point `t` is batch `t / 64`, head `(t / 4) % 16` and query tile `t % 4`: it reads rows
  `512 (t % 4) … + 511` of that batch and head's queries and all 2048 rows of its keys and values, and writes back the
  same 512 rows of the weights (2048 columns) and of the contexts (64 lanes).  The blocks tile both results, so after
  the run the weights at `(n, h, i, j)` are `Heads.prob` and the contexts at `(n, h, i, e)` are `Heads.ctx` of batch
  `n`'s head `h`.
-/
import proofs.«158187_j6820408066290_2_alg».proof.Proof.FrameKI
import proofs.«158187_j6820408066290_2_alg».proof.Proof.Body1
import Idealize.ShloMosaic.Lib.Pipeline.Value
import Idealize.ShloMosaic.Lib.ValueIdx

set_option maxRecDepth 16384

noncomputable section

open scoped BigOperators

namespace Cert.KernelIdeal.Arr1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

theorem hz4 : (![0, 0, 0, 0] : Fin 4 → Nat) = fun _ => 0 := funext fun a => by fin_cases a <;> rfl

/-- Batch `n`'s head `h` of a [4, 16, 2048, 64] array, as a 2048 × 64 array. -/
def headOf (a : S4x16x2048x64.Idx → EReal) (n : Fin 4) (h : Fin 16) : Fin 2048 → Fin 64 → EReal := fun t e => a (ix4 n h t e)

/-- The weights: entry `(n, h, i, j)`. -/
def GP (aq ak : S4x16x2048x64.Idx → EReal) : S4x16x2048x2048.Idx → EReal :=
  fun k => Heads.prob (headOf aq ⟨(k 0).val, (k 0).isLt⟩ ⟨(k 1).val, (k 1).isLt⟩) (headOf ak ⟨(k 0).val, (k 0).isLt⟩ ⟨(k 1).val, (k 1).isLt⟩)
    ⟨(k 2).val, (k 2).isLt⟩ ⟨(k 3).val, (k 3).isLt⟩

theorem GP_ix4 (aq ak : S4x16x2048x64.Idx → EReal) (n : Fin 4) (h : Fin 16) (i j : Fin 2048) :
    GP aq ak (ix4 n h i j) = Heads.prob (headOf aq n h) (headOf ak n h) i j := rfl

/-- The contexts: entry `(n, h, i, e)`. -/
def GO (aq ak av : S4x16x2048x64.Idx → EReal) : S4x16x2048x64.Idx → EReal :=
  fun k => Heads.ctx (headOf aq ⟨(k 0).val, (k 0).isLt⟩ ⟨(k 1).val, (k 1).isLt⟩) (headOf ak ⟨(k 0).val, (k 0).isLt⟩ ⟨(k 1).val, (k 1).isLt⟩)
    (headOf av ⟨(k 0).val, (k 0).isLt⟩ ⟨(k 1).val, (k 1).isLt⟩) ⟨(k 2).val, (k 2).isLt⟩ ⟨(k 3).val, (k 3).isLt⟩

theorem GO_ix4 (aq ak av : S4x16x2048x64.Idx → EReal) (n : Fin 4) (h : Fin 16) (i : Fin 2048) (e : Fin 64) :
    GO aq ak av (ix4 n h i e) = Heads.ctx (headOf aq n h) (headOf ak n h) (headOf av n h) i e := rfl

/-- The printed index maps over the grid, and the grid's second coordinate. -/
theorem idx_facts : ∀ t : Fin cfg1.N,
    (win1_0.index t (0 : Fin 4) = t.val / 64 ∧ win1_0.index t (1 : Fin 4) = t.val / 4 % 16 ∧ win1_0.index t (2 : Fin 4) = t.val % 4 ∧ win1_0.index t (3 : Fin 4) = 0)
    ∧ (win1_1.index t (0 : Fin 4) = t.val / 64 ∧ win1_1.index t (1 : Fin 4) = t.val / 4 % 16 ∧ win1_1.index t (2 : Fin 4) = 0 ∧ win1_1.index t (3 : Fin 4) = 0)
    ∧ (win1_2.index t (0 : Fin 4) = t.val / 64 ∧ win1_2.index t (1 : Fin 4) = t.val / 4 % 16 ∧ win1_2.index t (2 : Fin 4) = 0 ∧ win1_2.index t (3 : Fin 4) = 0)
    ∧ (win1_3.index t (0 : Fin 4) = t.val / 64 ∧ win1_3.index t (1 : Fin 4) = t.val / 4 % 16 ∧ win1_3.index t (2 : Fin 4) = t.val % 4 ∧ win1_3.index t (3 : Fin 4) = 0)
    ∧ (win1_4.index t (0 : Fin 4) = t.val / 64 ∧ win1_4.index t (1 : Fin 4) = t.val / 4 % 16 ∧ win1_4.index t (2 : Fin 4) = t.val % 4 ∧ win1_4.index t (3 : Fin 4) = 0)
    ∧ (grid1.coords t 1).val = t.val % 4 :=
  (by decide +kernel : ∀ t : Fin grid1.N, _)

/-- One block of weights: a body at a point of query tile `qt` whose loaded blocks are rows `512 qt …` of batch `n`'s head
    `h` of `AQ` and all rows of that head of `AK` stores, at `y`, the weights at `(n, h, 512 qt + y 2, y 3)`. -/
theorem blockP_eq (AQ AK : S4x16x2048x64.Idx → EReal) (i : grid1.Coords)
    (x0 : Vec Ideal S1x1x512x64 .bf16) (x1 : Vec Ideal S1x1x2048x64 .bf16)
    (n : Fin 4) (h : Fin 16) (qt : ℕ) (hqt : qt < 4) (hi : (i 1).val = qt)
    (h0 : ∀ (p : Fin 512) (e : Fin 64), x0 (ix4 0 0 p e) = AQ (ix4 n h ⟨qt * 512 + p.val, by omega⟩ e))
    (h1 : ∀ (j : Fin 2048) (e : Fin 64), x1 (ix4 0 0 j e) = AK (ix4 n h j e))
    (y : S1x1x512x2048.Idx) (k : S4x16x2048x2048.Idx) (hk0 : (k 0).val = n.val) (hk1 : (k 1).val = h.val)
    (hk2 : (k 2).val = qt * 512 + (y 2).val) (hk3 : (k 3).val = (y 3).val) :
    k1_pay3 (F := Ideal) i x0 x1 y = GP AQ AK k := by
  obtain ⟨u, v, p, j, rfl⟩ : ∃ (u v : Fin 1) (p : Fin 512) (j : Fin 2048), y = ix4 u v p j := ⟨y 0, y 1, y 2, y 3, eq_ix4 y⟩
  obtain rfl : u = 0 := Subsingleton.elim _ _
  obtain rfl : v = 0 := Subsingleton.elim _ _
  have hk : k = ix4 n h ⟨qt * 512 + p.val, by omega⟩ j := by
    rw [eq_ix4 k]
    congr 1
    · exact Fin.ext hk0
    · exact Fin.ext hk1
    · exact Fin.ext hk2
    · exact Fin.ext hk3
  have eq : Body1.qrow x0 p = headOf AQ n h ⟨qt * 512 + p.val, by omega⟩ := funext fun e => h0 p e
  have ek : Body1.rows x1 = headOf AK n h := funext fun j' => funext fun e => h1 j' e
  rw [hk, GP_ix4, Body1.pay3_apply, hi, eq, ek]
  rfl

/-- One block of contexts, likewise. -/
theorem blockO_eq (AQ AK AV : S4x16x2048x64.Idx → EReal) (i : grid1.Coords)
    (x0 : Vec Ideal S1x1x512x64 .bf16) (x1 x2 : Vec Ideal S1x1x2048x64 .bf16)
    (n : Fin 4) (h : Fin 16) (qt : ℕ) (hqt : qt < 4) (hi : (i 1).val = qt)
    (h0 : ∀ (p : Fin 512) (e : Fin 64), x0 (ix4 0 0 p e) = AQ (ix4 n h ⟨qt * 512 + p.val, by omega⟩ e))
    (h1 : ∀ (j : Fin 2048) (e : Fin 64), x1 (ix4 0 0 j e) = AK (ix4 n h j e))
    (h2 : ∀ (j : Fin 2048) (e : Fin 64), x2 (ix4 0 0 j e) = AV (ix4 n h j e))
    (y : S1x1x512x64.Idx) (k : S4x16x2048x64.Idx) (hk0 : (k 0).val = n.val) (hk1 : (k 1).val = h.val)
    (hk2 : (k 2).val = qt * 512 + (y 2).val) (hk3 : (k 3).val = (y 3).val) :
    k1_pay1 (F := Ideal) (k1_pay4 i x0 x1 x2) y = GO AQ AK AV k := by
  obtain ⟨u, v, p, e, rfl⟩ : ∃ (u v : Fin 1) (p : Fin 512) (e : Fin 64), y = ix4 u v p e := ⟨y 0, y 1, y 2, y 3, eq_ix4 y⟩
  obtain rfl : u = 0 := Subsingleton.elim _ _
  obtain rfl : v = 0 := Subsingleton.elim _ _
  have hk : k = ix4 n h ⟨qt * 512 + p.val, by omega⟩ e := by
    rw [eq_ix4 k]
    congr 1
    · exact Fin.ext hk0
    · exact Fin.ext hk1
    · exact Fin.ext hk2
    · exact Fin.ext hk3
  have eq : Body1.qrow x0 p = headOf AQ n h ⟨qt * 512 + p.val, by omega⟩ := funext fun e' => h0 p e'
  have ek : Body1.rows x1 = headOf AK n h := funext fun j' => funext fun e' => h1 j' e'
  have ev : Body1.rows x2 = headOf AV n h := funext fun j' => funext fun e' => h2 j' e'
  rw [hk, GO_ix4, Body1.pay14_apply, hi, eq, ek, ev]
  rfl

/-- The batch, head and query tile of a point. -/
theorem pt_lt (t : Fin cfg1.N) : t.val / 64 < 4 ∧ t.val / 4 % 16 < 16 ∧ t.val % 4 < 4 := by
  have := t.isLt; have hN : cfg1.N = 256 := N_1; omega

/-- Point `t`'s block of queries. -/
theorem read_0 (c : Dev nD) (t : Fin cfg1.N) (p : Fin 512) (e : Fin 64) :
    iblk1 V c 0 t (ix4 0 0 p e) = V c main_v10 (ix4 ⟨t.val / 64, (pt_lt t).1⟩ ⟨t.val / 4 % 16, (pt_lt t).2.1⟩
      ⟨t.val % 4 * 512 + p.val, by have := (pt_lt t).2.2; omega⟩ e) := by
  show V c main_v10 (((cfg1.win 0).blk t).view.emb (ix4 0 0 p e)) = V c main_v10 _
  obtain ⟨⟨e0, e1, e2, e3⟩, -⟩ := idx_facts t
  refine congrArg (V c main_v10) (funext fun a => Fin.ext ?_)
  match a with
  | ⟨0, _⟩ => show win1_0.index t (0 : Fin 4) * 1 + 1 * 0 = t.val / 64; omega
  | ⟨1, _⟩ => show win1_0.index t (1 : Fin 4) * 1 + 1 * 0 = t.val / 4 % 16; omega
  | ⟨2, _⟩ => show win1_0.index t (2 : Fin 4) * 512 + 1 * p.val = t.val % 4 * 512 + p.val; omega
  | ⟨3, _⟩ => show win1_0.index t (3 : Fin 4) * 64 + 1 * e.val = e.val; omega

/-- Point `t`'s block of keys. -/
theorem read_1 (c : Dev nD) (t : Fin cfg1.N) (j : Fin 2048) (e : Fin 64) :
    iblk1 V c 1 t (ix4 0 0 j e) = V c main_v12 (ix4 ⟨t.val / 64, (pt_lt t).1⟩ ⟨t.val / 4 % 16, (pt_lt t).2.1⟩ j e) := by
  show V c main_v12 (((cfg1.win 1).blk t).view.emb (ix4 0 0 j e)) = V c main_v12 _
  obtain ⟨-, ⟨e0, e1, e2, e3⟩, -⟩ := idx_facts t
  refine congrArg (V c main_v12) (funext fun a => Fin.ext ?_)
  match a with
  | ⟨0, _⟩ => show win1_1.index t (0 : Fin 4) * 1 + 1 * 0 = t.val / 64; omega
  | ⟨1, _⟩ => show win1_1.index t (1 : Fin 4) * 1 + 1 * 0 = t.val / 4 % 16; omega
  | ⟨2, _⟩ => show win1_1.index t (2 : Fin 4) * 2048 + 1 * j.val = j.val; omega
  | ⟨3, _⟩ => show win1_1.index t (3 : Fin 4) * 64 + 1 * e.val = e.val; omega

/-- Point `t`'s block of values. -/
theorem read_2 (c : Dev nD) (t : Fin cfg1.N) (j : Fin 2048) (e : Fin 64) :
    iblk1 V c 2 t (ix4 0 0 j e) = V c main_v14 (ix4 ⟨t.val / 64, (pt_lt t).1⟩ ⟨t.val / 4 % 16, (pt_lt t).2.1⟩ j e) := by
  show V c main_v14 (((cfg1.win 2).blk t).view.emb (ix4 0 0 j e)) = V c main_v14 _
  obtain ⟨-, -, ⟨e0, e1, e2, e3⟩, -⟩ := idx_facts t
  refine congrArg (V c main_v14) (funext fun a => Fin.ext ?_)
  match a with
  | ⟨0, _⟩ => show win1_2.index t (0 : Fin 4) * 1 + 1 * 0 = t.val / 64; omega
  | ⟨1, _⟩ => show win1_2.index t (1 : Fin 4) * 1 + 1 * 0 = t.val / 4 % 16; omega
  | ⟨2, _⟩ => show win1_2.index t (2 : Fin 4) * 2048 + 1 * j.val = j.val; omega
  | ⟨3, _⟩ => show win1_2.index t (3 : Fin 4) * 64 + 1 * e.val = e.val; omega

/-- WHAT POINT `t` WRITES BACK of the weights is block `t` of `GP`. -/
theorem flushedP_eq (c : Dev nD) (t : Fin cfg1.N) :
    (dat1 V c).flushed 4 t = ((cfg1.win 4).blk t).view.read (Elt Ideal) (GP (V c main_v10) (V c main_v12)) := by
  show (cfg1.win 4).cut (grid1.coords t) ((dat1 V c).after 4 t) = _
  rw [after1_4]
  unfold out1_4
  rw [View.canon_unit_zero hz4]
  simp only [View.ld_unit_zero (S := S1x1x512x64) hz4, View.ld_unit_zero (S := S1x1x2048x64) hz4]
  funext y
  obtain ⟨-, -, -, -, ⟨e0, e1, e2, e3⟩, eg⟩ := idx_facts t
  obtain ⟨hn, hh, hq⟩ := pt_lt t
  refine blockP_eq (V c main_v10) (V c main_v12) (grid1.coords t) (iblk1 V c 0 t) (iblk1 V c 1 t)
    ⟨t.val / 64, hn⟩ ⟨t.val / 4 % 16, hh⟩ (t.val % 4) hq eg (read_0 V c t) (read_1 V c t) y (((cfg1.win 4).blk t).view.emb y) ?_ ?_ ?_ ?_
  · show win1_4.index t (0 : Fin 4) * 1 + 1 * (y 0).val = t.val / 64; have hy0 : (y 0).val < 1 := (y 0).isLt; omega
  · show win1_4.index t (1 : Fin 4) * 1 + 1 * (y 1).val = t.val / 4 % 16; have hy1 : (y 1).val < 1 := (y 1).isLt; omega
  · show win1_4.index t (2 : Fin 4) * 512 + 1 * (y 2).val = t.val % 4 * 512 + (y 2).val; omega
  · show win1_4.index t (3 : Fin 4) * 2048 + 1 * (y 3).val = (y 3).val; omega

/-- WHAT POINT `t` WRITES BACK of the contexts is block `t` of `GO`. -/
theorem flushedO_eq (c : Dev nD) (t : Fin cfg1.N) :
    (dat1 V c).flushed 3 t = ((cfg1.win 3).blk t).view.read (Elt Ideal) (GO (V c main_v10) (V c main_v12) (V c main_v14)) := by
  show (cfg1.win 3).cut (grid1.coords t) ((dat1 V c).after 3 t) = _
  rw [after1_3]
  unfold out1_3
  rw [View.canon_unit_zero hz4]
  simp only [View.ld_unit_zero (S := S1x1x512x64) hz4, View.ld_unit_zero (S := S1x1x2048x64) hz4]
  funext y
  obtain ⟨-, -, -, ⟨e0, e1, e2, e3⟩, -, eg⟩ := idx_facts t
  obtain ⟨hn, hh, hq⟩ := pt_lt t
  refine blockO_eq (V c main_v10) (V c main_v12) (V c main_v14) (grid1.coords t) (iblk1 V c 0 t) (iblk1 V c 1 t) (iblk1 V c 2 t)
    ⟨t.val / 64, hn⟩ ⟨t.val / 4 % 16, hh⟩ (t.val % 4) hq eg (read_0 V c t) (read_1 V c t) (read_2 V c t) y (((cfg1.win 3).blk t).view.emb y) ?_ ?_ ?_ ?_
  · show win1_3.index t (0 : Fin 4) * 1 + 1 * (y 0).val = t.val / 64; have hy0 : (y 0).val < 1 := (y 0).isLt; omega
  · show win1_3.index t (1 : Fin 4) * 1 + 1 * (y 1).val = t.val / 4 % 16; have hy1 : (y 1).val < 1 := (y 1).isLt; omega
  · show win1_3.index t (2 : Fin 4) * 512 + 1 * (y 2).val = t.val % 4 * 512 + (y 2).val; omega
  · show win1_3.index t (3 : Fin 4) * 64 + 1 * (y 3).val = (y 3).val; omega

/-- An index of the weights is in point `t`'s block iff each coordinate is in the block's range on its axis. -/
theorem mem_blkP (t : Fin cfg1.N) (i : S4x16x2048x2048.Idx) :
    i ∈ ((cfg1.win 4).blk t).view.set ↔ ∀ a : Fin 4, win1_4.index t a * S1x1x512x2048.size a ≤ (i a).val ∧ (i a).val < win1_4.index t a * S1x1x512x2048.size a + S1x1x512x2048.size a := by
  show i ∈ ((View.whole main_v15_1).slice (win1_4.rect t)).set ↔ _
  rw [View.set_slice_whole, Rect.mem_set_unit]
  exact Iff.rfl

/-- The same for the contexts. -/
theorem mem_blkO (t : Fin cfg1.N) (i : S4x16x2048x64.Idx) :
    i ∈ ((cfg1.win 3).blk t).view.set ↔ ∀ a : Fin 4, win1_3.index t a * S1x1x512x64.size a ≤ (i a).val ∧ (i a).val < win1_3.index t a * S1x1x512x64.size a + S1x1x512x64.size a := by
  show i ∈ ((View.whole main_v15_0).slice (win1_3.rect t)).set ↔ _
  rw [View.set_slice_whole, Rect.mem_set_unit]
  exact Iff.rfl

/-- The point that covers batch `n`, head `h`, row `r`. -/
def ptOf (n h r : ℕ) (hn : n < 4) (hh : h < 16) (hr : r < 2048) : Fin cfg1.N :=
  ⟨n * 64 + h * 4 + r / 512, by have hN : cfg1.N = 256 := N_1; omega⟩

/-- Every entry of the weights is in some point's block. -/
theorem coverP (i : S4x16x2048x2048.Idx) :
    ∃ t : Fin cfg1.N, (cfg1.win 4).flush t = true ∧ i ∈ ((cfg1.win 4).blk t).view.set := by
  have hi0 : (i 0).val < 4 := (i 0).isLt
  have hi1 : (i 1).val < 16 := (i 1).isLt
  have hi2 : (i 2).val < 2048 := (i 2).isLt
  have hi3 : (i 3).val < 2048 := (i 3).isLt
  refine ⟨ptOf (i 0).val (i 1).val (i 2).val hi0 hi1 hi2, flush1_4 _, ?_⟩
  obtain ⟨-, -, -, -, ⟨e0, e1, e2, e3⟩, -⟩ := idx_facts (ptOf (i 0).val (i 1).val (i 2).val hi0 hi1 hi2)
  have ht : (ptOf (i 0).val (i 1).val (i 2).val hi0 hi1 hi2).val = (i 0).val * 64 + (i 1).val * 4 + (i 2).val / 512 := rfl
  rw [mem_blkP]
  intro a
  match a with
  | ⟨0, _⟩ => show win1_4.index _ (0 : Fin 4) * 1 ≤ (i 0).val ∧ (i 0).val < win1_4.index _ (0 : Fin 4) * 1 + 1; omega
  | ⟨1, _⟩ => show win1_4.index _ (1 : Fin 4) * 1 ≤ (i 1).val ∧ (i 1).val < win1_4.index _ (1 : Fin 4) * 1 + 1; omega
  | ⟨2, _⟩ => show win1_4.index _ (2 : Fin 4) * 512 ≤ (i 2).val ∧ (i 2).val < win1_4.index _ (2 : Fin 4) * 512 + 512; omega
  | ⟨3, _⟩ => show win1_4.index _ (3 : Fin 4) * 2048 ≤ (i 3).val ∧ (i 3).val < win1_4.index _ (3 : Fin 4) * 2048 + 2048; omega

/-- Every entry of the contexts is in some point's block. -/
theorem coverO (i : S4x16x2048x64.Idx) :
    ∃ t : Fin cfg1.N, (cfg1.win 3).flush t = true ∧ i ∈ ((cfg1.win 3).blk t).view.set := by
  have hi0 : (i 0).val < 4 := (i 0).isLt
  have hi1 : (i 1).val < 16 := (i 1).isLt
  have hi2 : (i 2).val < 2048 := (i 2).isLt
  have hi3 : (i 3).val < 64 := (i 3).isLt
  refine ⟨ptOf (i 0).val (i 1).val (i 2).val hi0 hi1 hi2, flush1_3 _, ?_⟩
  obtain ⟨-, -, -, ⟨e0, e1, e2, e3⟩, -, -⟩ := idx_facts (ptOf (i 0).val (i 1).val (i 2).val hi0 hi1 hi2)
  have ht : (ptOf (i 0).val (i 1).val (i 2).val hi0 hi1 hi2).val = (i 0).val * 64 + (i 1).val * 4 + (i 2).val / 512 := rfl
  rw [mem_blkO]
  intro a
  match a with
  | ⟨0, _⟩ => show win1_3.index _ (0 : Fin 4) * 1 ≤ (i 0).val ∧ (i 0).val < win1_3.index _ (0 : Fin 4) * 1 + 1; omega
  | ⟨1, _⟩ => show win1_3.index _ (1 : Fin 4) * 1 ≤ (i 1).val ∧ (i 1).val < win1_3.index _ (1 : Fin 4) * 1 + 1; omega
  | ⟨2, _⟩ => show win1_3.index _ (2 : Fin 4) * 512 ≤ (i 2).val ∧ (i 2).val < win1_3.index _ (2 : Fin 4) * 512 + 512; omega
  | ⟨3, _⟩ => show win1_3.index _ (3 : Fin 4) * 64 ≤ (i 3).val ∧ (i 3).val < win1_3.index _ (3 : Fin 4) * 64 + 64; omega

/-- THE WEIGHTS after the run of the region. -/
theorem finalP (c : Dev nD) : (dat1 V c).arrAt 4 cfg1.N = GP (V c main_v10) (V c main_v12) :=
  (dat1 V c).arrAt_eq_of_cover 4 (GP (V c main_v10) (V c main_v12)) (fun t _ => flushedP_eq V c t) coverP

/-- THE CONTEXTS after the run of the region. -/
theorem finalO (c : Dev nD) : (dat1 V c).arrAt 3 cfg1.N = GO (V c main_v10) (V c main_v12) (V c main_v14) :=
  (dat1 V c).arrAt_eq_of_cover 3 (GO (V c main_v10) (V c main_v12) (V c main_v14)) (fun t _ => flushedO_eq V c t) coverO

end Cert.KernelIdeal.Arr1

end
-- ==== Proof.HostRead.lean ====
/-
  The host operations around the two kernels, read at an index, from ANY buffer contents `W` they start from.
  Before the projection: the input reshaped to 8192 rows (row `r` is position `r % 2048` of batch `r / 2048`), the
  weights as they are, the bias as one row.  Between the kernels: the projected 8192 × 3072 array cut into its three
  thirds and re-laid head by head, so that entry `(n, h, t, e)` of third `s` is row `n * 2048 + t`, column
  `s * 1024 + h * 64 + e`.  After the attention kernel: the contexts re-laid so that entry `(n, t, h * 64 + e)` is the
  kernel's `(n, h, t, e)`; the weights are not touched.
-/
import proofs.«158187_j6820408066290_2_alg».proof.Proof.Gen.KernelIdeal.Launch
import proofs.«158187_j6820408066290_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostRead

open Idealize.ShloMosaic Idealize.ShloMosaic.ValueIdx Idealize.ShloMosaic.StableHlo Idealize.ShloMosaic.TcCoe
open Cert.KernelIdeal Cert.KernelIdeal.Gen

variable (W : Valuation τ sig (Elt Ideal))

/-- The input as 8192 rows. -/
theorem host0_v1 (r : Fin 8192) (k : Fin 1024) :
    (StableHlo.after (hostOps0 (F := Ideal)) W (Proc.devRef .tc main_v1) : S8192x1024.Idx → EReal) (ix2 r k)
      = (W (Proc.devRef .tc main_arg0) : S4x2048x1024.Idx → EReal) (ix3 ⟨r.val / 2048, by omega⟩ ⟨r.val % 2048, Nat.mod_lt _ (by norm_num)⟩ k) := by
  have e : (StableHlo.after (hostOps0 (F := Ideal)) W (Proc.devRef .tc main_v1) : S8192x1024.Idx → EReal)
      = truncf (F := Ideal) (φ := .f32) .bf16 (shapeCast S8192x1024 (W (Proc.devRef .tc main_arg0) : S4x2048x1024.Idx → EReal)
          shapeCasts_S4x2048x1024_S8192x1024) bitsLt_bf16_f32 := by
    after_results
    rfl
  rw [e]
  refine (truncf_apply (φ := .f32) (ψ := .bf16) _ bitsLt_bf16_f32 (ix2 r k)).trans ?_
  refine shapeCast_apply _ shapeCasts_S4x2048x1024_S8192x1024 (ix2 r k) _ ?_
  rw [Shape.rowMajor_val_three, Shape.rowMajor_val_two]
  show (r.val / 2048 * 2048 + r.val % 2048) * 1024 + k.val = r.val * 1024 + k.val
  omega

/-- The weights. -/
theorem host0_v2 (k : Fin 1024) (d : Fin 3072) :
    (StableHlo.after (hostOps0 (F := Ideal)) W (Proc.devRef .tc main_v2) : S1024x3072.Idx → EReal) (ix2 k d)
      = (W (Proc.devRef .tc main_arg1) : S1024x3072.Idx → EReal) (ix2 k d) := by
  have e : (StableHlo.after (hostOps0 (F := Ideal)) W (Proc.devRef .tc main_v2) : S1024x3072.Idx → EReal)
      = truncf (F := Ideal) (φ := .f32) .bf16 (W (Proc.devRef .tc main_arg1) : S1024x3072.Idx → EReal) bitsLt_bf16_f32 := by
    after_results
  rw [e]
  exact truncf_apply (φ := .f32) (ψ := .bf16) _ bitsLt_bf16_f32 (ix2 k d)

/-- The bias as one row. -/
theorem host0_v3 (d : Fin 3072) :
    (StableHlo.after (hostOps0 (F := Ideal)) W (Proc.devRef .tc main_v3) : S1x3072.Idx → EReal) (ix2 0 d)
      = (W (Proc.devRef .tc main_arg2) : S3072.Idx → EReal) (ix1 d) := by
  have e : (StableHlo.after (hostOps0 (F := Ideal)) W (Proc.devRef .tc main_v3) : S1x3072.Idx → EReal)
      = shapeCast S1x3072 (W (Proc.devRef .tc main_arg2) : S3072.Idx → EReal) shapeCasts_S3072_S1x3072 := by
    after_results
    rfl
  rw [e]
  refine shapeCast_apply _ shapeCasts_S3072_S1x3072 (ix2 0 d) (ix1 d) ?_
  rw [Shape.rowMajor_val_one, Shape.rowMajor_val_two]
  show d.val = 0 * 3072 + d.val
  omega

/-- A 8192 × 3072 array seen as 4 × 2048 × 3072, cut to the 1024 features starting at `s * 1024`, split into 16 heads
    of 64 lanes and with the position and head axes exchanged, reads at `(n, h, t, e)` the array's row
    `n * 2048 + t` at feature `s * 1024 + h * 64 + e`. -/
private theorem third_read (X : S8192x3072.Idx → EReal) (s : Fin 3) (off : Fin 3 → Nat)
    (h0 : off 0 = 0) (h1 : off 1 = 0) (h2 : off 2 = s.val * 1024) (hs : S4x2048x3072.Slices off S4x2048x1024)
    (n : Fin 4) (h : Fin 16) (t : Fin 2048) (e : Fin 64) :
    transpose S4x16x2048x64 [0, 2, 1, 3]
        (shapeCast S4x2048x16x64
          (extractStridedSlice S4x2048x1024 off (shapeCast S4x2048x3072 X shapeCasts_S8192x3072_S4x2048x3072) hs)
          shapeCasts_S4x2048x1024_S4x2048x16x64)
        transposes_S4x2048x16x64_S4x16x2048x64_0_2_1_3 (ix4 n h t e)
      = X (ix2 ⟨n.val * 2048 + t.val, by omega⟩ (Heads.col s h e)) := by
  refine (transpose_apply [0, 2, 1, 3] _ transposes_S4x2048x16x64_S4x16x2048x64_0_2_1_3 (ix4 n h t e) (ix4 n t h e)
    (fun b => match b with
      | ⟨0, _⟩ => rfl
      | ⟨1, _⟩ => rfl
      | ⟨2, _⟩ => rfl
      | ⟨3, _⟩ => rfl)).trans ?_
  refine (shapeCast_apply _ shapeCasts_S4x2048x1024_S4x2048x16x64 (ix4 n t h e)
    (ix3 n t (⟨h.val * 64 + e.val, by omega⟩ : Fin 1024)) ?_).trans ?_
  · rw [Shape.rowMajor_val_three, Shape.rowMajor_val_four]
    show (n.val * 2048 + t.val) * 1024 + (h.val * 64 + e.val) = ((n.val * 2048 + t.val) * 16 + h.val) * 64 + e.val
    omega
  refine (extractStridedSlice_apply off _ hs (ix3 n t (⟨h.val * 64 + e.val, by omega⟩ : Fin 1024))
    (ix3 n t (Heads.col s h e)) (fun a => match a with
      | ⟨0, _⟩ => by show n.val = off 0 + n.val; omega
      | ⟨1, _⟩ => by show t.val = off 1 + t.val; omega
      | ⟨2, _⟩ => by show s.val * 1024 + h.val * 64 + e.val = off 2 + (h.val * 64 + e.val); omega)).trans ?_
  refine shapeCast_apply _ shapeCasts_S8192x3072_S4x2048x3072 (ix3 n t (Heads.col s h e))
    (ix2 (⟨n.val * 2048 + t.val, by omega⟩ : Fin 8192) (Heads.col s h e)) ?_
  rw [Shape.rowMajor_val_two, Shape.rowMajor_val_three]
  rfl

/-- Third `s` of the projected array, head by head. -/
theorem host1_v10 (n : Fin 4) (h : Fin 16) (t : Fin 2048) (e : Fin 64) :
    (StableHlo.after (hostOps1 (F := Ideal)) W (Proc.devRef .tc main_v10) : S4x16x2048x64.Idx → EReal) (ix4 n h t e)
      = (W (Proc.devRef .tc main_v4) : S8192x3072.Idx → EReal) (ix2 ⟨n.val * 2048 + t.val, by omega⟩ (Heads.col 0 h e)) := by
  have e' : (StableHlo.after (hostOps1 (F := Ideal)) W (Proc.devRef .tc main_v10) : S4x16x2048x64.Idx → EReal)
      = transpose S4x16x2048x64 [0, 2, 1, 3]
          (shapeCast S4x2048x16x64
            (extractStridedSlice S4x2048x1024 ![0, 0, 0]
              (shapeCast S4x2048x3072 (W (Proc.devRef .tc main_v4) : S8192x3072.Idx → EReal) shapeCasts_S8192x3072_S4x2048x3072)
              slices_S4x2048x3072_S4x2048x1024_0_0_0)
            shapeCasts_S4x2048x1024_S4x2048x16x64)
          transposes_S4x2048x16x64_S4x16x2048x64_0_2_1_3 := by
    after_results
    rfl
  rw [e']
  exact third_read _ 0 ![0, 0, 0] rfl rfl rfl slices_S4x2048x3072_S4x2048x1024_0_0_0 n h t e

theorem host1_v12 (n : Fin 4) (h : Fin 16) (t : Fin 2048) (e : Fin 64) :
    (StableHlo.after (hostOps1 (F := Ideal)) W (Proc.devRef .tc main_v12) : S4x16x2048x64.Idx → EReal) (ix4 n h t e)
      = (W (Proc.devRef .tc main_v4) : S8192x3072.Idx → EReal) (ix2 ⟨n.val * 2048 + t.val, by omega⟩ (Heads.col 1 h e)) := by
  have e' : (StableHlo.after (hostOps1 (F := Ideal)) W (Proc.devRef .tc main_v12) : S4x16x2048x64.Idx → EReal)
      = transpose S4x16x2048x64 [0, 2, 1, 3]
          (shapeCast S4x2048x16x64
            (extractStridedSlice S4x2048x1024 ![0, 0, 1024]
              (shapeCast S4x2048x3072 (W (Proc.devRef .tc main_v4) : S8192x3072.Idx → EReal) shapeCasts_S8192x3072_S4x2048x3072)
              slices_S4x2048x3072_S4x2048x1024_0_0_1024)
            shapeCasts_S4x2048x1024_S4x2048x16x64)
          transposes_S4x2048x16x64_S4x16x2048x64_0_2_1_3 := by
    after_results
    rfl
  rw [e']
  exact third_read _ 1 ![0, 0, 1024] rfl rfl rfl slices_S4x2048x3072_S4x2048x1024_0_0_1024 n h t e

theorem host1_v14 (n : Fin 4) (h : Fin 16) (t : Fin 2048) (e : Fin 64) :
    (StableHlo.after (hostOps1 (F := Ideal)) W (Proc.devRef .tc main_v14) : S4x16x2048x64.Idx → EReal) (ix4 n h t e)
      = (W (Proc.devRef .tc main_v4) : S8192x3072.Idx → EReal) (ix2 ⟨n.val * 2048 + t.val, by omega⟩ (Heads.col 2 h e)) := by
  have e' : (StableHlo.after (hostOps1 (F := Ideal)) W (Proc.devRef .tc main_v14) : S4x16x2048x64.Idx → EReal)
      = transpose S4x16x2048x64 [0, 2, 1, 3]
          (shapeCast S4x2048x16x64
            (extractStridedSlice S4x2048x1024 ![0, 0, 2048]
              (shapeCast S4x2048x3072 (W (Proc.devRef .tc main_v4) : S8192x3072.Idx → EReal) shapeCasts_S8192x3072_S4x2048x3072)
              slices_S4x2048x3072_S4x2048x1024_0_0_2048)
            shapeCasts_S4x2048x1024_S4x2048x16x64)
          transposes_S4x2048x16x64_S4x16x2048x64_0_2_1_3 := by
    after_results
    rfl
  rw [e']
  exact third_read _ 2 ![0, 0, 2048] rfl rfl rfl slices_S4x2048x3072_S4x2048x1024_0_0_2048 n h t e

/-- The contexts re-laid. -/
theorem host2_v17 (n : Fin 4) (t : Fin 2048) (h : Fin 16) (e : Fin 64) :
    (StableHlo.after (hostOps2 (F := Ideal)) W (Proc.devRef .tc main_v17) : S4x2048x1024.Idx → EReal) (ix3 n t ⟨h.val * 64 + e.val, by omega⟩)
      = (W (Proc.devRef .tc main_v15_0) : S4x16x2048x64.Idx → EReal) (ix4 n h t e) := by
  have e' : (StableHlo.after (hostOps2 (F := Ideal)) W (Proc.devRef .tc main_v17) : S4x2048x1024.Idx → EReal)
      = shapeCast S4x2048x1024
          (transpose S4x2048x16x64 [0, 2, 1, 3] (W (Proc.devRef .tc main_v15_0) : S4x16x2048x64.Idx → EReal)
            transposes_S4x16x2048x64_S4x2048x16x64_0_2_1_3)
          shapeCasts_S4x2048x16x64_S4x2048x1024 := by
    after_results
    rfl
  rw [e']
  refine (shapeCast_apply _ shapeCasts_S4x2048x16x64_S4x2048x1024
    (ix3 n t (⟨h.val * 64 + e.val, by omega⟩ : Fin 1024)) (ix4 n t h e) ?_).trans ?_
  · rw [Shape.rowMajor_val_three, Shape.rowMajor_val_four]
    show ((n.val * 2048 + t.val) * 16 + h.val) * 64 + e.val = (n.val * 2048 + t.val) * 1024 + (h.val * 64 + e.val)
    omega
  exact transpose_apply [0, 2, 1, 3] _ transposes_S4x16x2048x64_S4x2048x16x64_0_2_1_3 (ix4 n t h e) (ix4 n h t e)
    (fun b => match b with
      | ⟨0, _⟩ => rfl
      | ⟨1, _⟩ => rfl
      | ⟨2, _⟩ => rfl
      | ⟨3, _⟩ => rfl)

/-- The weights are not touched. -/
theorem host2_v15_1 :
    StableHlo.after (hostOps2 (F := Ideal)) W (Proc.devRef .tc main_v15_1) = W (Proc.devRef .tc main_v15_1) := by
  after_results

end Cert.KernelIdeal.HostRead

end
-- ==== Proof.SpecArr.lean ====
/-
  The two results of causal multi-head attention as whole arrays, and how an array is recognised as one of them:
  the weights `[4, 16, 2048, 2048]` by their value at every `(n, h, i, j)`, the re-laid contexts `[4, 2048, 1024]`
  (feature `h * 64 + e` of position `t` is head `h`'s lane `e`) by their value at every `(n, t, h * 64 + e)`.
-/
import proofs.«158187_j6820408066290_2_alg».proof.Proof.Spec

noncomputable section

namespace Heads

open Idealize.ShloMosaic Idealize.ShloMosaic.ValueIdx

variable (x : (⟨3, ![4, 2048, 1024]⟩ : Shape).Idx → EReal) (w : (⟨2, ![1024, 3072]⟩ : Shape).Idx → EReal)
  (b : (⟨1, ![3072]⟩ : Shape).Idx → EReal)

/-- The weights of batch `n`, head `h`, at `(i, j)`. -/
def probAt (n : Fin 4) (h : Fin 16) (i j : Fin 2048) : EReal := prob (third x w b 0 n h) (third x w b 1 n h) i j

/-- The context of batch `n`, head `h`, at position `t`, lane `e`. -/
def ctxAt (n : Fin 4) (h : Fin 16) (t : Fin 2048) (e : Fin 64) : EReal :=
  ctx (third x w b 0 n h) (third x w b 1 n h) (third x w b 2 n h) t e

/-- The weights as an array. -/
def probArr : (⟨4, ![4, 16, 2048, 2048]⟩ : Shape).Idx → EReal :=
  fun k => probAt x w b ⟨(k 0).val, (k 0).isLt⟩ ⟨(k 1).val, (k 1).isLt⟩ ⟨(k 2).val, (k 2).isLt⟩ ⟨(k 3).val, (k 3).isLt⟩

/-- The re-laid contexts as an array: feature `c` is lane `c % 64` of head `c / 64`. -/
def outArr : (⟨3, ![4, 2048, 1024]⟩ : Shape).Idx → EReal :=
  fun k => ctxAt x w b ⟨(k 0).val, (k 0).isLt⟩ ⟨(k 2).val / 64, by have h : (k 2).val < 1024 := (k 2).isLt; omega⟩
    ⟨(k 1).val, (k 1).isLt⟩ ⟨(k 2).val % 64, Nat.mod_lt _ (by norm_num)⟩

/-- An array that has the weights' value at every `(n, h, i, j)` is the weights. -/
theorem eq_probArr (A : (⟨4, ![4, 16, 2048, 2048]⟩ : Shape).Idx → EReal)
    (hA : ∀ (n : Fin 4) (h : Fin 16) (i j : Fin 2048), A (ix4 n h i j) = probAt x w b n h i j) : A = probArr x w b := by
  funext k
  obtain ⟨n, h, i, j, rfl⟩ : ∃ (n : Fin 4) (h : Fin 16) (i j : Fin 2048), k = ix4 n h i j := ⟨k 0, k 1, k 2, k 3, eq_ix4 k⟩
  exact (hA n h i j).trans rfl

/-- An array that has the contexts' value at every `(n, t, h * 64 + e)` is the re-laid contexts. -/
theorem eq_outArr (A : (⟨3, ![4, 2048, 1024]⟩ : Shape).Idx → EReal)
    (hA : ∀ (n : Fin 4) (t : Fin 2048) (h : Fin 16) (e : Fin 64),
      A (ix3 n t ⟨h.val * 64 + e.val, by omega⟩) = ctxAt x w b n h t e) : A = outArr x w b := by
  funext k
  obtain ⟨n, t, c, rfl⟩ : ∃ (n : Fin 4) (t : Fin 2048) (c : Fin 1024), k = ix3 n t c := ⟨k 0, k 1, k 2, eq_ix3 k⟩
  have hc : c = ⟨c.val / 64 * 64 + c.val % 64, by omega⟩ := Fin.ext (by show c.val = c.val / 64 * 64 + c.val % 64; omega)
  exact (congrArg (fun z => A (ix3 n t z)) hc).trans
    ((hA n t ⟨c.val / 64, by omega⟩ ⟨c.val % 64, Nat.mod_lt _ (by norm_num)⟩).trans rfl)

end Heads

end
-- ==== Proof.KValue.lean ====
/-
  What the idealized kernel program leaves in its two result buffers, as functions of the three argument arrays it
  reads.  The fold of @main's segments is walked backwards: the contexts' re-laying after the attention kernel, the
  attention kernel's two arrays (`Arr1`), the re-laying of the projected array into heads, the projection kernel's
  array (`Arr0`), and the reshapes of the arguments before it.  The weights end at `Heads.probArr` and the re-laid
  contexts at `Heads.outArr` of the input, the weight matrix and the bias.
-/
import proofs.«158187_j6820408066290_2_alg».proof.Proof.FrameKI
import proofs.«158187_j6820408066290_2_alg».proof.Proof.Arr0
import proofs.«158187_j6820408066290_2_alg».proof.Proof.Arr1
import proofs.«158187_j6820408066290_2_alg».proof.Proof.HostRead
import proofs.«158187_j6820408066290_2_alg».proof.Proof.SpecArr

set_option maxRecDepth 16384

noncomputable section

open scoped BigOperators

namespace Cert.KernelIdeal.KValue

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ) (ρ : Dev nD → PrngReg)

/-- The three argument arrays the program reads. -/
abbrev aX (c : Dev nD) : S4x2048x1024.Idx → EReal := m ((c : Thread nD τ).loc main_arg0)
abbrev aW (c : Dev nD) : S1024x3072.Idx → EReal := m ((c : Thread nD τ).loc main_arg1)
abbrev aB (c : Dev nD) : S3072.Idx → EReal := m ((c : Thread nD τ).loc main_arg2)

/-- The projected array when the projection kernel has run: entry `(r, d)` is position `r % 2048` of batch `r / 2048`
    against column `d`. -/
theorem proj_entry (c : Dev nD) (r : Fin 8192) (d : Fin 3072) :
    (W2 m ρ c (Proc.devRef .tc main_v4) : S8192x3072.Idx → EReal) (ix2 r d)
      = Heads.proj (aX m c) (aW m c) (aB m c) ⟨r.val / 2048, by omega⟩ ⟨r.val % 2048, Nat.mod_lt _ (by norm_num)⟩ d := by
  have e := W2_arr m ρ c 3
  rw [Arr0.final] at e
  rw [show W2 m ρ c (Proc.devRef .tc main_v4) = W2 m ρ c (Proc.devRef .tc (Pipeline.arrRef spec0 3)) from rfl, e, Arr0.G0_ix2]
  unfold Heads.proj
  refine congrArg₂ (· + ·) (Finset.sum_congr rfl fun l _ => ?_) (HostRead.host0_v3 (W0 m ρ c) d)
  exact congrArg₂ (· * ·) (HostRead.host0_v1 (W0 m ρ c) r l) (HostRead.host0_v2 (W0 m ρ c) l d)

/-- Row `n * 2048 + t` of the projected array is position `t` of batch `n`. -/
theorem proj_row (c : Dev nD) (n : Fin 4) (t : Fin 2048) (d : Fin 3072) :
    (W2 m ρ c (Proc.devRef .tc main_v4) : S8192x3072.Idx → EReal) (ix2 ⟨n.val * 2048 + t.val, by omega⟩ d)
      = Heads.proj (aX m c) (aW m c) (aB m c) n t d := by
  rw [proj_entry]
  have h1 : (n.val * 2048 + t.val) / 2048 = n.val := by omega
  have h2 : (n.val * 2048 + t.val) % 2048 = t.val := by omega
  exact congrArg₂ (fun a b => Heads.proj (aX m c) (aW m c) (aB m c) a b d) (Fin.ext h1) (Fin.ext h2)

/-- The queries the attention kernel finds: batch `n`'s head `h` is the first third of the projection. -/
theorem q_head (c : Dev nD) (n : Fin 4) (h : Fin 16) :
    Arr1.headOf (V3 m ρ c main_v10) n h = Heads.third (aX m c) (aW m c) (aB m c) 0 n h := by
  funext t e
  show (W3 m ρ c (Proc.devRef .tc main_v10) : S4x16x2048x64.Idx → EReal) (ix4 n h t e) = _
  exact (HostRead.host1_v10 (W2 m ρ c) n h t e).trans (proj_row m ρ c n t (Heads.col 0 h e))

/-- The keys: the second third. -/
theorem k_head (c : Dev nD) (n : Fin 4) (h : Fin 16) :
    Arr1.headOf (V3 m ρ c main_v12) n h = Heads.third (aX m c) (aW m c) (aB m c) 1 n h := by
  funext t e
  show (W3 m ρ c (Proc.devRef .tc main_v12) : S4x16x2048x64.Idx → EReal) (ix4 n h t e) = _
  exact (HostRead.host1_v12 (W2 m ρ c) n h t e).trans (proj_row m ρ c n t (Heads.col 1 h e))

/-- The values: the last third. -/
theorem v_head (c : Dev nD) (n : Fin 4) (h : Fin 16) :
    Arr1.headOf (V3 m ρ c main_v14) n h = Heads.third (aX m c) (aW m c) (aB m c) 2 n h := by
  funext t e
  show (W3 m ρ c (Proc.devRef .tc main_v14) : S4x16x2048x64.Idx → EReal) (ix4 n h t e) = _
  exact (HostRead.host1_v14 (W2 m ρ c) n h t e).trans (proj_row m ρ c n t (Heads.col 2 h e))

/-- THE WEIGHTS at the end of the program. -/
theorem prob_arr (c : Dev nD) :
    (W5 m ρ c (Proc.devRef .tc main_v15_1) : S4x16x2048x2048.Idx → EReal) = Heads.probArr (aX m c) (aW m c) (aB m c) := by
  refine Heads.eq_probArr _ _ _ _ fun n h i j => ?_
  have e := W4_arr m ρ c 4
  rw [Arr1.finalP] at e
  rw [show W5 m ρ c (Proc.devRef .tc main_v15_1) = W4 m ρ c (Proc.devRef .tc (Pipeline.arrRef spec1 4)) from
    HostRead.host2_v15_1 (W4 m ρ c), e, Arr1.GP_ix4, q_head, k_head]
  rfl

/-- THE RE-LAID CONTEXTS at the end of the program. -/
theorem out_arr (c : Dev nD) :
    (W5 m ρ c (Proc.devRef .tc main_v17) : S4x2048x1024.Idx → EReal) = Heads.outArr (aX m c) (aW m c) (aB m c) := by
  refine Heads.eq_outArr _ _ _ _ fun n t h e => ?_
  refine (HostRead.host2_v17 (W4 m ρ c) n t h e).trans ?_
  have e3 := W4_arr m ρ c 3
  rw [Arr1.finalO] at e3
  rw [show W4 m ρ c (Proc.devRef .tc main_v15_0) = W4 m ρ c (Proc.devRef .tc (Pipeline.arrRef spec1 3)) from rfl,
    e3, Arr1.GO_ix4, q_head, k_head, v_head]
  rfl

end Cert.KernelIdeal.KValue

end
-- ==== Proof.RefValue.lean ====
/-
  The reference program's two results, index by index, are causal multi-head attention (`Heads`): its weights at
  `(n, h, i, j)` are `Heads.prob` of batch `n`'s head `h`, and its context at `(n, t, h * 64 + e)` is `Heads.ctx`.
-/
import proofs.«158187_j6820408066290_2_alg».proof.Proof.Gen.ReferenceIdeal.Read
import proofs.«158187_j6820408066290_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read

section Stages

variable (x0 : FVec Ideal S4x2048x1024 .f32) (x1 : FVec Ideal S1024x3072 .f32) (x2 : FVec Ideal S3072 .f32)

/-- The projection's contraction reads the input at (n, t, k). -/
private theorem lidx_v0 (n : Fin 4) (t : Fin 2048) (d : Fin 3072) (k : Fin 1024) :
    lidx_main_v0 (ix3 n t d) k = ix3 n t k :=
  funext fun a => Fin.ext (by match a with | ⟨0, _⟩ => rfl | ⟨1, _⟩ => rfl | ⟨2, _⟩ => rfl)

private theorem ridx_v0 (n : Fin 4) (t : Fin 2048) (d : Fin 3072) (k : Fin 1024) :
    ridx_main_v0 (ix3 n t d) k = ix2 k d :=
  funext fun a => Fin.ext (by match a with | ⟨0, _⟩ => rfl | ⟨1, _⟩ => rfl)

private theorem idx_v1v2 (n : Fin 4) (t : Fin 2048) (d : Fin 3072) :
    idx_main_v1 (idx_main_v2 (ix3 n t d)) = ix1 d :=
  funext fun a => Fin.ext (by match a with | ⟨0, _⟩ => rfl)

/-- The biased projection at (n, t, d). -/
theorem v3_at (n : Fin 4) (t : Fin 2048) (d : Fin 3072) :
    val_main_v3 (F := Ideal) x0 x1 x2 (ix3 n t d) = Heads.proj x0 x1 x2 n t d := by
  rw [val_main_v3_apply, val_main_v0_apply, val_main_v2_apply, val_main_v1_apply, idx_v1v2]
  simp only [lidx_v0, ridx_v0, Ideal.addf_def]
  rfl

/-- Head h, position t, lane e of the first third sits at feature h*64+e of the sliced projection. -/
private theorem idx_q (n : Fin 4) (h : Fin 16) (t : Fin 2048) (e : Fin 64) :
    idx_main_v4 (idx_main_v7 (idx_main_v8 (ix4 n h t e))) = ix3 n t (Heads.col 0 h e) :=
  funext fun a => Fin.ext (by
    have := n.isLt; have := h.isLt; have := t.isLt; have := e.isLt
    match a with
    | ⟨0, _⟩ => show (((n.val * 2048 + t.val) * 16 + h.val) * 64 + e.val) / 2097152 = n.val; omega
    | ⟨1, _⟩ => show (((n.val * 2048 + t.val) * 16 + h.val) * 64 + e.val) / 1024 % 2048 = t.val; omega
    | ⟨2, _⟩ => show (((n.val * 2048 + t.val) * 16 + h.val) * 64 + e.val) % 1024 = 0 * 1024 + h.val * 64 + e.val; omega)

private theorem idx_k (n : Fin 4) (h : Fin 16) (t : Fin 2048) (e : Fin 64) :
    idx_main_v5 (idx_main_v9 (idx_main_v10 (ix4 n h t e))) = ix3 n t (Heads.col 1 h e) :=
  funext fun a => Fin.ext (by
    have := n.isLt; have := h.isLt; have := t.isLt; have := e.isLt
    match a with
    | ⟨0, _⟩ => show (((n.val * 2048 + t.val) * 16 + h.val) * 64 + e.val) / 2097152 = n.val; omega
    | ⟨1, _⟩ => show (((n.val * 2048 + t.val) * 16 + h.val) * 64 + e.val) / 1024 % 2048 = t.val; omega
    | ⟨2, _⟩ => show 1024 + (((n.val * 2048 + t.val) * 16 + h.val) * 64 + e.val) % 1024 = 1 * 1024 + h.val * 64 + e.val; omega)

private theorem idx_v (n : Fin 4) (h : Fin 16) (t : Fin 2048) (e : Fin 64) :
    idx_main_v6 (idx_main_v11 (idx_main_v12 (ix4 n h t e))) = ix3 n t (Heads.col 2 h e) :=
  funext fun a => Fin.ext (by
    have := n.isLt; have := h.isLt; have := t.isLt; have := e.isLt
    match a with
    | ⟨0, _⟩ => show (((n.val * 2048 + t.val) * 16 + h.val) * 64 + e.val) / 2097152 = n.val; omega
    | ⟨1, _⟩ => show (((n.val * 2048 + t.val) * 16 + h.val) * 64 + e.val) / 1024 % 2048 = t.val; omega
    | ⟨2, _⟩ => show 2048 + (((n.val * 2048 + t.val) * 16 + h.val) * 64 + e.val) % 1024 = 2 * 1024 + h.val * 64 + e.val; omega)

/-- The queries of batch n, head h. -/
theorem v8_at (n : Fin 4) (h : Fin 16) (t : Fin 2048) (e : Fin 64) :
    val_main_v8 (F := Ideal) x0 x1 x2 (ix4 n h t e) = Heads.third x0 x1 x2 0 n h t e := by
  rw [val_main_v8_apply, val_main_v7_apply, val_main_v4_apply, idx_q, v3_at]
  rfl

/-- The keys of batch n, head h. -/
theorem v10_at (n : Fin 4) (h : Fin 16) (t : Fin 2048) (e : Fin 64) :
    val_main_v10 (F := Ideal) x0 x1 x2 (ix4 n h t e) = Heads.third x0 x1 x2 1 n h t e := by
  rw [val_main_v10_apply, val_main_v9_apply, val_main_v5_apply, idx_k, v3_at]
  rfl

/-- The values of batch n, head h. -/
theorem v12_at (n : Fin 4) (h : Fin 16) (t : Fin 2048) (e : Fin 64) :
    val_main_v12 (F := Ideal) x0 x1 x2 (ix4 n h t e) = Heads.third x0 x1 x2 2 n h t e := by
  rw [val_main_v12_apply, val_main_v11_apply, val_main_v6_apply, idx_v, v3_at]
  rfl

private theorem lidx_v13 (n : Fin 4) (h : Fin 16) (i j : Fin 2048) (k : Fin 64) :
    lidx_main_v13 (ix4 n h i j) k = ix4 n h i k :=
  funext fun a => Fin.ext (by match a with | ⟨0, _⟩ => rfl | ⟨1, _⟩ => rfl | ⟨2, _⟩ => rfl | ⟨3, _⟩ => rfl)

private theorem ridx_v13 (n : Fin 4) (h : Fin 16) (i j : Fin 2048) (k : Fin 64) :
    ridx_main_v13 (ix4 n h i j) k = ix4 n h j k :=
  funext fun a => Fin.ext (by match a with | ⟨0, _⟩ => rfl | ⟨1, _⟩ => rfl | ⟨2, _⟩ => rfl | ⟨3, _⟩ => rfl)

/-- The score of position i against position j. -/
theorem v13_at (n : Fin 4) (h : Fin 16) (i j : Fin 2048) :
    val_main_v13 (F := Ideal) x0 x1 x2 (ix4 n h i j)
      = ∑ e : Fin 64, Heads.third x0 x1 x2 0 n h i e * Heads.third x0 x1 x2 1 n h j e := by
  rw [val_main_v13_apply]
  simp only [lidx_v13, ridx_v13, v8_at, v10_at]

/-- The scaled score. -/
theorem v16_at (n : Fin 4) (h : Fin 16) (i j : Fin 2048) :
    val_main_v16 (F := Ideal) x0 x1 x2 (ix4 n h i j)
      = (∑ e : Fin 64, Heads.third x0 x1 x2 0 n h i e * Heads.third x0 x1 x2 1 n h j e) * Attn.c8 := by
  rw [val_main_v16_apply, val_main_v15_apply, val_main_v14_apply, val_main_cst_apply, v13_at,
    Ideal.hostDivf_def, Ideal.hostUnary_sqrt_def, Ideal.ofBits_def, Heads.div_sqrt64]

/-- A number below 2048, as a 32-bit word read signed, is itself. -/
private theorem toInt_small (a : Nat) (ha : a < 2048) : (BitVec.ofNat 32 a).toInt = (a : Int) := by
  have h1 : (BitVec.ofNat 32 a).toNat = a := by
    rw [BitVec.toNat_ofNat]; exact Nat.mod_eq_of_lt (by omega)
  rw [BitVec.toInt_eq_toNat_of_lt (by rw [h1]; omega), h1]

/-- The signed 32-bit comparison "a + 0 ≥ b" of two numbers below 2048 is the order of the numbers. -/
private theorem sge_small (a b : Nat) (ha : a < 2048) (hb : b < 2048) :
    IntOp.cmpi .sge (IntOp.addi (BitVec.ofNat 32 a) 0#32) (BitVec.ofNat 32 b) = if b ≤ a then 1#1 else 0#1 := by
  unfold IntOp.cmpi IntOp.addi
  rw [BitVec.add_zero]
  simp only [BitVec.sle, toInt_small a ha, toInt_small b hb, Nat.cast_le]
  by_cases h : b ≤ a
  · rw [if_pos h, decide_eq_true h]; rfl
  · rw [if_neg h, decide_eq_false h]; rfl

private theorem idx_mask (n : Fin 4) (h : Fin 16) (i j : Fin 2048) :
    idx_main_v19 (idx_main_call1_v1 (ix4 n h i j)) = ix2 i j :=
  funext fun a => Fin.ext (by match a with | ⟨0, _⟩ => rfl | ⟨1, _⟩ => rfl)

/-- The mask bit at (n, h, i, j) is set exactly on and below the diagonal. -/
theorem mask_at (n : Fin 4) (h : Fin 16) (i j : Fin 2048) :
    val_main_call1_v1 (F := Ideal) (ix4 n h i j) = if j.val ≤ i.val then 1#1 else 0#1 := by
  rw [val_main_call1_v1_apply, val_main_v19_apply, idx_mask, val_main_v18_apply, val_main_call0_v4_apply,
    val_main_call0_v2_apply, val_main_call0_v0_apply, val_main_call0_v1_apply, val_main_call0_c_apply,
    val_main_call0_v3_apply, val_main_v17_apply, val_main_c_apply, val_main_call0_v5_apply,
    val_main_call0_c_0_apply]
  show Scalar.select (IntOp.cmpi .sge (IntOp.addi (BitVec.ofNat 32 i.val) 0#32) (BitVec.ofNat 32 j.val)) 1#1 0#1 = _
  rw [sge_small _ _ i.isLt j.isLt]
  by_cases hji : j.val ≤ i.val
  · rw [if_pos hji, select_one]
  · rw [if_neg hji, select_zero]

/-- The masked logit: the scaled score on and below the diagonal, −∞ above it. -/
theorem v20_at (n : Fin 4) (h : Fin 16) (i j : Fin 2048) :
    val_main_v20 (F := Ideal) x0 x1 x2 (ix4 n h i j)
      = Heads.rowLogit (Heads.third x0 x1 x2 0 n h i) (Heads.third x0 x1 x2 1 n h) i.val j := by
  rw [val_main_v20_apply, mask_at, v16_at, val_main_call1_v2_apply, val_main_call1_v0_apply, val_main_cst_0_apply,
    Ideal.ofBits_def, Heads.ninf_eq]
  unfold Heads.rowLogit
  by_cases hji : j.val ≤ i.val
  · rw [if_pos hji, if_pos hji, select_one]
  · rw [if_neg hji, if_neg hji, select_zero]

/-- The reduced index (n, h, i) with coordinate k put back on the last axis is (n, h, i, k). -/
private theorem lift_last (hr : S4x16x2048x2048.Reduces [3] S4x16x2048) (n : Fin 4) (h : Fin 16) (i : Fin 2048)
    (k : Fin (S4x16x2048x2048.size 3)) : hr.lift (ix3 n h i) k = ix4 n h i (⟨k.val, k.isLt⟩ : Fin 2048) := by
  funext c; apply Fin.ext
  fin_cases c <;> rfl

/-- A reduce-max from −∞ over the last axis, at (n, h, i), is the fold of max from −∞ over the row's entries. -/
private theorem rowMax_of_reduce (y : FVec Ideal S4x16x2048x2048 .f32) (z : Fin 2048 → EReal) (n : Fin 4) (h : Fin 16)
    (i : Fin 2048) (hz : ∀ j : Fin 2048, y (ix4 n h i j) = z j) :
    Host.reduce FloatOps.maximumf y (val_main_cst_1 (F := Ideal)) reducesTo_S4x16x2048x2048_S4x16x2048_d3 h_S_ (ix3 n h i)
      = Attn.rowMax ⊥ z := by
  have hr : S4x16x2048x2048.Reduces [3] S4x16x2048 := by decide
  rw [Host.reduce_eq_fold_single FloatOps.maximumf y _ reducesTo_S4x16x2048x2048_S4x16x2048_d3 hr h_S_,
    val_main_cst_1_apply, Ideal.ofBits_def, Heads.ninf_eq]
  have hf : (y ∘ hr.lift (ix3 n h i)) = fun k : Fin 2048 => z k :=
    funext fun k => (congrArg y (lift_last hr n h i k)).trans (hz k)
  exact congrArg (fun f => Finset.fold max (⊥ : EReal) f (Finset.univ : Finset (Fin 2048))) hf

/-- The row's maximum, folded from −∞ over the key positions. -/
theorem v21_at (n : Fin 4) (h : Fin 16) (i : Fin 2048) :
    val_main_v21 (F := Ideal) x0 x1 x2 (ix3 n h i)
      = Attn.rowMax ⊥ (Heads.rowLogit (Heads.third x0 x1 x2 0 n h i) (Heads.third x0 x1 x2 1 n h) i.val) := by
  unfold val_main_v21
  exact rowMax_of_reduce _ _ n h i (v20_at x0 x1 x2 n h i)

/-- The maximum with a −∞ array changes nothing: the row's maximum again. -/
theorem v23_at (n : Fin 4) (h : Fin 16) (i : Fin 2048) :
    val_main_v23 (F := Ideal) x0 x1 x2 (ix3 n h i)
      = Attn.rowMax ⊥ (Heads.rowLogit (Heads.third x0 x1 x2 0 n h i) (Heads.third x0 x1 x2 1 n h) i.val) := by
  rw [val_main_v23_apply, val_main_v22_apply, val_main_cst_2_apply, v21_at, Ideal.maximumf_def, Ideal.ofBits_def,
    Heads.ninf_eq, Attn.max_init_fold]

private theorem idx_keep (n : Fin 4) (h : Fin 16) (i j : Fin 2048) :
    idx_main_v24 (idx_main_v25 (ix4 n h i j)) = ix3 n h i :=
  funext fun a => Fin.ext (by match a with | ⟨0, _⟩ => rfl | ⟨1, _⟩ => rfl | ⟨2, _⟩ => rfl)

private theorem idx_keep' (n : Fin 4) (h : Fin 16) (i j : Fin 2048) :
    idx_main_v29 (idx_main_v30 (ix4 n h i j)) = ix3 n h i :=
  funext fun a => Fin.ext (by match a with | ⟨0, _⟩ => rfl | ⟨1, _⟩ => rfl | ⟨2, _⟩ => rfl)

/-- The exponential of the logit less the row's maximum. -/
theorem v27_at (n : Fin 4) (h : Fin 16) (i j : Fin 2048) :
    val_main_v27 (F := Ideal) x0 x1 x2 (ix4 n h i j)
      = Ideal.exp (Heads.rowLogit (Heads.third x0 x1 x2 0 n h i) (Heads.third x0 x1 x2 1 n h) i.val j
          - Attn.rowMax ⊥ (Heads.rowLogit (Heads.third x0 x1 x2 0 n h i) (Heads.third x0 x1 x2 1 n h) i.val)) := by
  rw [val_main_v27_apply, val_main_v26_apply, val_main_v25_apply, val_main_v24_apply, idx_keep, v23_at, v20_at,
    Ideal.hostUnary_exp_def, Ideal.subf_def]

private theorem idx_v28 (n : Fin 4) (h : Fin 16) (i k : Fin 2048) :
    idx_main_v28 (ix3 n h i) k = ix4 n h i k :=
  funext fun a => Fin.ext (by match a with | ⟨0, _⟩ => rfl | ⟨1, _⟩ => rfl | ⟨2, _⟩ => rfl | ⟨3, _⟩ => rfl)

/-- The row's sum of exponentials. -/
theorem v28_at (n : Fin 4) (h : Fin 16) (i : Fin 2048) :
    val_main_v28 (F := Ideal) x0 x1 x2 (ix3 n h i)
      = ∑ k : Fin 2048, Ideal.exp (Heads.rowLogit (Heads.third x0 x1 x2 0 n h i) (Heads.third x0 x1 x2 1 n h) i.val k
          - Attn.rowMax ⊥ (Heads.rowLogit (Heads.third x0 x1 x2 0 n h i) (Heads.third x0 x1 x2 1 n h) i.val)) := by
  rw [val_main_v28_apply, val_main_cst_3_apply, Ideal.ofBits_def, Ideal.ofBits_zero_f32, zero_add]
  simp only [idx_v28, v27_at]

/-- The attention weights: the stable softmax of the row's logits. -/
theorem v31_at (n : Fin 4) (h : Fin 16) (i j : Fin 2048) :
    val_main_v31 (F := Ideal) x0 x1 x2 (ix4 n h i j)
      = Heads.prob (Heads.third x0 x1 x2 0 n h) (Heads.third x0 x1 x2 1 n h) i j := by
  rw [val_main_v31_apply, val_main_v30_apply, val_main_v29_apply, idx_keep', v27_at, v28_at, Ideal.hostDivf_def]
  rfl

private theorem lidx_v32 (n : Fin 4) (h : Fin 16) (t : Fin 2048) (e : Fin 64) (k : Fin 2048) :
    lidx_main_v32 (ix4 n h t e) k = ix4 n h t k :=
  funext fun a => Fin.ext (by match a with | ⟨0, _⟩ => rfl | ⟨1, _⟩ => rfl | ⟨2, _⟩ => rfl | ⟨3, _⟩ => rfl)

private theorem ridx_v32 (n : Fin 4) (h : Fin 16) (t : Fin 2048) (e : Fin 64) (k : Fin 2048) :
    ridx_main_v32 (ix4 n h t e) k = ix4 n h k e :=
  funext fun a => Fin.ext (by match a with | ⟨0, _⟩ => rfl | ⟨1, _⟩ => rfl | ⟨2, _⟩ => rfl | ⟨3, _⟩ => rfl)

/-- The context of head h at position t, lane e: the weights against the values. -/
theorem v32_at (n : Fin 4) (h : Fin 16) (t : Fin 2048) (e : Fin 64) :
    val_main_v32 (F := Ideal) x0 x1 x2 (ix4 n h t e)
      = Heads.ctx (Heads.third x0 x1 x2 0 n h) (Heads.third x0 x1 x2 1 n h) (Heads.third x0 x1 x2 2 n h) t e := by
  rw [val_main_v32_apply]
  simp only [lidx_v32, ridx_v32, v31_at, v12_at]
  rfl

/-- Feature h*64+e of position t, in the re-laid context, is head h's lane e. -/
private theorem idx_out (n : Fin 4) (t : Fin 2048) (h : Fin 16) (e : Fin 64) :
    idx_main_v33 (idx_main_v34 (ix3 n t (⟨h.val * 64 + e.val, by omega⟩ : Fin 1024))) = ix4 n h t e :=
  funext fun a => Fin.ext (by
    have := n.isLt; have := h.isLt; have := t.isLt; have := e.isLt
    match a with
    | ⟨0, _⟩ => show ((n.val * 2048 + t.val) * 1024 + (h.val * 64 + e.val)) / 2097152 = n.val; omega
    | ⟨1, _⟩ => show ((n.val * 2048 + t.val) * 1024 + (h.val * 64 + e.val)) / 64 % 16 = h.val; omega
    | ⟨2, _⟩ => show ((n.val * 2048 + t.val) * 1024 + (h.val * 64 + e.val)) / 1024 % 2048 = t.val; omega
    | ⟨3, _⟩ => show ((n.val * 2048 + t.val) * 1024 + (h.val * 64 + e.val)) % 64 = e.val; omega)

end Stages

/-- The reference's attention weights. -/
theorem ref_prob (x0 : FVec Ideal S4x2048x1024 .f32) (x1 : FVec Ideal S1024x3072 .f32) (x2 : FVec Ideal S3072 .f32)
    (n : Fin 4) (h : Fin 16) (i j : Fin 2048) :
    val_main_v31 (F := Ideal) x0 x1 x2 (ix4 n h i j)
      = Heads.prob (Heads.third x0 x1 x2 0 n h) (Heads.third x0 x1 x2 1 n h) i j :=
  v31_at x0 x1 x2 n h i j

/-- The reference's context. -/
theorem ref_out (x0 : FVec Ideal S4x2048x1024 .f32) (x1 : FVec Ideal S1024x3072 .f32) (x2 : FVec Ideal S3072 .f32)
    (n : Fin 4) (t : Fin 2048) (h : Fin 16) (e : Fin 64) :
    val_main_v34 (F := Ideal) x0 x1 x2 (ix3 n t ⟨h.val * 64 + e.val, by omega⟩)
      = Heads.ctx (Heads.third x0 x1 x2 0 n h) (Heads.third x0 x1 x2 1 n h) (Heads.third x0 x1 x2 2 n h) t e := by
  rw [val_main_v34_apply, val_main_v33_apply, idx_out, v32_at]

end Cert.ReferenceIdeal.RefValue

end
-- ==== Proof.lean ====
/-
  The certificate: the kernel program (a projection kernel, a re-laying into heads, a causal-attention kernel, a
  re-laying back) against the reference (the same computation in plain array operations), over the extended reals.

  Both programs compute causal multi-head attention (`Heads`): the input projected by the weight matrix and shifted
  by the bias, cut into queries, keys and values of 16 heads of 64 lanes; per batch and head the logits
  `(q · k) / 8` at or below the diagonal and −∞ above it, their stable softmax (the weights, the second result), and the
  weights against the values, re-laid to `[4, 2048, 1024]` (the first result).  The kernel multiplies the score by
  the word of 1/8 where the reference divides by the square root of 64: one function on every extended real.  The kernel's
  fill value above the diagonal is a finite stand-in that the idealized program names −∞ (`preserves`), which is the
  reference's value there.  No step needs the inputs to be finite.

  The kernel side is read off the frame run of its two regions (`KRun`, `Arr0`, `Arr1`, `HostRead`, `KValue`); the
  reference side off its run, one operation at a time (`RefValue`).
-/
import proofs.«158187_j6820408066290_2_alg».proof.Defs
import proofs.«158187_j6820408066290_2_alg».proof.Proof.Gen.Kernel
import proofs.«158187_j6820408066290_2_alg».proof.Proof.Gen.KernelIdeal
import proofs.«158187_j6820408066290_2_alg».proof.Proof.Gen.ReferenceIdeal
import proofs.«158187_j6820408066290_2_alg».proof.Proof.Gen.Pre_finite_inputs
import proofs.«158187_j6820408066290_2_alg».proof.Proof.Gen.ReferenceIdeal.Run
import proofs.«158187_j6820408066290_2_alg».proof.Proof.Gen.ReferenceIdeal.Read
import proofs.«158187_j6820408066290_2_alg».proof.Proof.FrameK
import proofs.«158187_j6820408066290_2_alg».proof.Proof.FrameKI
import proofs.«158187_j6820408066290_2_alg».proof.Proof.KRun
import proofs.«158187_j6820408066290_2_alg».proof.Proof.KValue
import proofs.«158187_j6820408066290_2_alg».proof.Proof.RefValue
import proofs.«158187_j6820408066290_2_alg».proof.Proof.SpecArr
import Idealize.ShloMosaic.PureOps.IdealRules
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : @Cert.frame_Kernel Cert.Kernel.Gen.facts Cert.Pre_finite_inputs.Gen.facts :=
  fun m ρ _ => Cert.Kernel.GenP.frame m ρ

theorem frame_ki : @Cert.frame_KernelIdeal Cert.KernelIdeal.Gen.facts Cert.Pre_finite_inputs.Gen.facts :=
  fun m ρ _ => Cert.KernelIdeal.GenP.frame m ρ

theorem frame_ri : @Cert.frame_ReferenceIdeal Cert.ReferenceIdeal.Gen.facts Cert.Pre_finite_inputs.Gen.facts := fun m ρ _ =>
  (θ_run Cert.ReferenceIdeal.defs _ _).mono (fun _ h c => (h c).2.2) (Cert.ReferenceIdeal.Value.run (F := Ideal) m ρ)

/-- The one rewrite of the idealization: the finite fill value is named −∞. -/
theorem preserves : Cert.preserves_Kernel_KernelIdeal :=
  IdealRules.named_const.statement Cert.KernelIdeal.κ "neg_big" .f32 0xFF333332#32 ⊥ rfl

/-- The reference's weights as a whole array. -/
theorem ref_prob_arr (x0 : FVec Ideal Cert.ReferenceIdeal.S4x2048x1024 .f32) (x1 : FVec Ideal Cert.ReferenceIdeal.S1024x3072 .f32)
    (x2 : FVec Ideal Cert.ReferenceIdeal.S3072 .f32) :
    Cert.ReferenceIdeal.Read.val_main_v31 (F := Ideal) x0 x1 x2 = Heads.probArr x0 x1 x2 :=
  Heads.eq_probArr _ _ _ _ fun n h i j => Cert.ReferenceIdeal.RefValue.ref_prob x0 x1 x2 n h i j

/-- The reference's re-laid contexts as a whole array. -/
theorem ref_out_arr (x0 : FVec Ideal Cert.ReferenceIdeal.S4x2048x1024 .f32) (x1 : FVec Ideal Cert.ReferenceIdeal.S1024x3072 .f32)
    (x2 : FVec Ideal Cert.ReferenceIdeal.S3072 .f32) :
    Cert.ReferenceIdeal.Read.val_main_v34 (F := Ideal) x0 x1 x2 = Heads.outArr x0 x1 x2 :=
  Heads.eq_outArr _ _ _ _ fun n t h e => Cert.ReferenceIdeal.RefValue.ref_out x0 x1 x2 n t h e

open Cert.KernelIdeal Cert.KernelIdeal.Gen Cert.KernelIdeal.GenP in
/-- Both programs end with the weights at `Heads.probArr` and the contexts at `Heads.outArr` of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Heads.outArr (KValue.aX m c) (KValue.aW m c) (KValue.aB m c),
    fun c => Heads.probArr (KValue.aX m c) (KValue.aW m c) (KValue.aB m c), ?_, ?_⟩
  · exact (θ_run Cert.KernelIdeal.defs _ _).mono (fun r h c =>
      ⟨(h c _ (mem_uc main_v17 (by decide))).trans (KValue.out_arr m ρ c),
       (h c _ (mem_uc main_v15_1 (by decide))).trans (KValue.prob_arr m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)
      (run_all m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v34_eq, ref_out_arr, (hagree c).1, (hagree c).2.1, (hagree c).2.2.1]
    · rw [(h c).2.1, Cert.ReferenceIdeal.Read.val_main_v31_eq, ref_prob_arr, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
